-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x3x5 : Shape := ⟨3, ![2097152, 3, 5]⟩
abbrev S2097152x5 : Shape := ⟨2, ![2097152, 5]⟩
abbrev S_ : Shape := ⟨0, ![]⟩

class Facts : Prop where
  bcast_S_S2097152x3x5 : S_.BroadcastsInDim S2097152x3x5 (![] : Fin 0 → Fin S2097152x3x5.rank)
  reducesTo_S2097152x3x5_S_d0_1_2 : S2097152x3x5.ReducesTo [0, 1, 2] S_
  h_S_ : 0 < S_.numel

variable [Facts]

def fn {F : FTy → Type} [FloatOps F] (main_arg0 : FVec F S2097152x3x5 .f32) (main_arg1 : IVec S2097152x5 32) : IVec S_ 1 :=
  let main_v0 : FVec F S2097152x3x5 .f32 := Host.absf main_arg0
  let main_cst : FVec F S_ .f32 := constant S_ .f32 0x7F800000#32
  let main_v1 : FVec F S2097152x3x5 .f32 := broadcastInDim S2097152x3x5 ![] bcast_S_S2097152x3x5 main_cst
  let main_v2 : IVec S2097152x3x5 1 := cmpf .olt main_v0 main_v1
  let main_c : IVec S_ 1 := constantI S_ 1 1#1
  let main_v3 : IVec S_ 1 := (fun x v => Host.reduce IntOp.andi x v reducesTo_S2097152x3x5_S_d0_1_2 h_S_) main_v2 main_c
  main_v3
-- ==== Kernel.lean ====
abbrev S2097152x3x5 : Shape := ⟨3, ![2097152, 3, 5]⟩
abbrev S2097152x5 : Shape := ⟨2, ![2097152, 5]⟩
abbrev S3x5x2097152 : Shape := ⟨3, ![3, 5, 2097152]⟩
abbrev S5x2097152 : Shape := ⟨2, ![5, 2097152]⟩
abbrev S1x2097152 : Shape := ⟨2, ![1, 2097152]⟩
abbrev S3x5x16384 : Shape := ⟨3, ![3, 5, 16384]⟩
abbrev S5x16384 : Shape := ⟨2, ![5, 16384]⟩
abbrev S1x16384 : Shape := ⟨2, ![1, 16384]⟩
abbrev S1x5x16384 : Shape := ⟨3, ![1, 5, 16384]⟩
abbrev S16384 : Shape := ⟨1, ![16384]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S2097152x3x5, .f32⟩
  | .hbm, ⟨1, _⟩ => ⟨S2097152x5, .i32⟩
  | .hbm, ⟨2, _⟩ => ⟨S3x5x2097152, .f32⟩
  | .hbm, ⟨3, _⟩ => ⟨S5x2097152, .i32⟩
  | .hbm, ⟨4, _⟩ => ⟨S1x2097152, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S3x5x16384, .f32⟩
  | .local _ .vmem, ⟨1, _⟩ => ⟨S3x5x16384, .f32⟩
  | .local _ .vmem, ⟨2, _⟩ => ⟨S5x16384, .i32⟩
  | .local _ .vmem, ⟨3, _⟩ => ⟨S5x16384, .i32⟩
  | .local _ .vmem, ⟨4, _⟩ => ⟨S1x16384, .f32⟩
  | .local _ .vmem, ⟨5, _⟩ => ⟨S1x16384, .f32⟩
  | _, _ => ⟨S2097152x3x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x5x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5x16384 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S2097152x3x5_S3x5x2097152_1_2_0 : S2097152x3x5.Transposes [1, 2, 0] S3x5x2097152
  transposes_S2097152x5_S5x2097152_1_0 : S2097152x5.Transposes [1, 0] S5x2097152
  inb_S3x5x16384_S3x5x16384_0_0_0 : ∀ a, (![0, 0, 0] : Fin 3 → Nat) a + S3x5x16384.size a ≤ S3x5x16384.size a
  h_S3x5x16384 : 0 < S3x5x16384.numel
  shapeCasts_S3x5x16384_S3x5x16384 : S3x5x16384.ShapeCasts S3x5x16384
  inb_S5x16384_S5x16384_0_0 : ∀ a, (![0, 0] : Fin 2 → Nat) a + S5x16384.size a ≤ S5x16384.size a
  h_S5x16384 : 0 < S5x16384.numel
  shapeCasts_S5x16384_S5x16384 : S5x16384.ShapeCasts S5x16384
  reduces_S3x5x16384_S5x16384 : S3x5x16384.Reduces [0] S5x16384
  shapeCasts_S5x16384_S1x5x16384 : S5x16384.ShapeCasts S1x5x16384
  broadcasts_S1x5x16384_S3x5x16384 : S1x5x16384.Broadcasts S3x5x16384
  iota_S3x5x16384_d0_w32 : S3x5x16384.Iotas .tc 32 [0]
  natLt_1_32 : 1 < 32
  reduces_S5x16384_S16384 : S5x16384.Reduces [0] S16384
  shapeCasts_S16384_S1x16384 : S16384.ShapeCasts S1x16384
  inb_S1x16384_S1x16384_0_0 : ∀ a, (![0, 0] : Fin 2 → Nat) a + S1x16384.size a ≤ S1x16384.size a
  h_S1x16384 : 0 < S1x16384.numel
  reducesTo_S1x2097152_S_d0_1 : S1x2097152.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x5x16384.size a ≤ S3x5x2097152.size a
  hwx0_0 : ∀ i : grid0.Coords, EltTy.bits .f32 = 32 ∨ (Rect.block (s := S3x5x2097152) S3x5x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5x16384.size a ≤ S5x2097152.size a
  hwx0_1 : ∀ i : grid0.Coords, EltTy.bits .i32 = 32 ∨ (Rect.block (s := S5x2097152) S5x16384.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16384.size a ≤ S1x2097152.size a
  hwx0_2 : ∀ i : grid0.Coords, EltTy.bits .f32 = 32 ∨ (Rect.block (s := S1x2097152) S1x16384.size (cc0_transform_2 i) (hinb0_2 i)).WholeWords (EltTy.packing .f32)

variable [Facts₀]

abbrev win0_0 : Pipeline.Window sig grid0 :=
  Pipeline.Window.ofSpec (Memref.whole main_v0) S3x5x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S5x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x16384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2097152x3x5 : Shape := ⟨3, ![2097152, 3, 5]⟩
abbrev S2097152x5 : Shape := ⟨2, ![2097152, 5]⟩
abbrev S_ : Shape := ⟨0, ![]⟩
abbrev S2097152x1x5 : Shape := ⟨3, ![2097152, 1, 5]⟩
abbrev S1x3x1 : Shape := ⟨3, ![1, 3, 1]⟩
abbrev S2097152 : Shape := ⟨1, ![2097152]⟩

abbrev nBuf : Space → Nat
  | .hbm => 52
  | .vmem => 0
  | .smem => 0
  | _ => 0

abbrev bufTy : (tb : Table) → Fin (tcTables nBuf tb) → BufTy
  | .hbm, ⟨0, _⟩ => ⟨S2097152x3x5, .f32⟩
  | .hbm, ⟨1, _⟩ => ⟨S2097152x5, .i32⟩
  | .hbm, ⟨2, _⟩ => ⟨S_, .f32⟩
  | .hbm, ⟨3, _⟩ => ⟨S2097152x5, .f32⟩
  | .hbm, ⟨4, _⟩ => ⟨S_, .f32⟩
  | .hbm, ⟨5, _⟩ => ⟨S2097152x5, .f32⟩
  | .hbm, ⟨6, _⟩ => ⟨S2097152x5, .f32⟩
  | .hbm, ⟨7, _⟩ => ⟨S2097152x1x5, .f32⟩
  | .hbm, ⟨8, _⟩ => ⟨S2097152x3x5, .f32⟩
  | .hbm, ⟨9, _⟩ => ⟨S2097152x3x5, .f32⟩
  | .hbm, ⟨10, _⟩ => ⟨S2097152x3x5, .f32⟩
  | .hbm, ⟨11, _⟩ => ⟨S_, .f32⟩
  | .hbm, ⟨12, _⟩ => ⟨S2097152x5, .f32⟩
  | .hbm, ⟨13, _⟩ => ⟨S2097152x1x5, .f32⟩
  | .hbm, ⟨14, _⟩ => ⟨S2097152x1x5, .f32⟩
  | .hbm, ⟨15, _⟩ => ⟨S2097152x3x5, .f32⟩
  | .hbm, ⟨16, _⟩ => ⟨S2097152x3x5, .f32⟩
  | .hbm, ⟨17, _⟩ => ⟨S_, .i32⟩
  | .hbm, ⟨18, _⟩ => ⟨S2097152x5, .i32⟩
  | .hbm, ⟨19, _⟩ => ⟨S2097152x5, .i1⟩
  | .hbm, ⟨20, _⟩ => ⟨S_, .i32⟩
  | .hbm, ⟨21, _⟩ => ⟨S_, .i32⟩
  | .hbm, ⟨22, _⟩ => ⟨S2097152x5, .i32⟩
  | .hbm, ⟨23, _⟩ => ⟨S2097152x5, .i32⟩
  | .hbm, ⟨24, _⟩ => ⟨S2097152x1x5, .i32⟩
  | .hbm, ⟨25, _⟩ => ⟨S1x3x1, .i32⟩
  | .hbm, ⟨26, _⟩ => ⟨S2097152x3x5, .i32⟩
  | .hbm, ⟨27, _⟩ => ⟨S2097152x3x5, .i32⟩
  | .hbm, ⟨28, _⟩ => ⟨S2097152x3x5, .i1⟩
  | .hbm, ⟨29, _⟩ => ⟨S2097152x3x5, .f32⟩
  | .hbm, ⟨30, _⟩ => ⟨S_, .f32⟩
  | .hbm, ⟨31, _⟩ => ⟨S2097152x3x5, .f32⟩
  | .hbm, ⟨32, _⟩ => ⟨S2097152x3x5, .f32⟩
  | .hbm, ⟨33, _⟩ => ⟨S2097152x1x5, .i1⟩
  | .hbm, ⟨34, _⟩ => ⟨S2097152x1x5, .f32⟩
  | .hbm, ⟨35, _⟩ => ⟨S2097152x3x5, .f32⟩
  | .hbm, ⟨36, _⟩ => ⟨S2097152x3x5, .f32⟩
  | .hbm, ⟨37, _⟩ => ⟨S_, .f32⟩
  | .hbm, ⟨38, _⟩ => ⟨S2097152x3x5, .f32⟩
  | .hbm, ⟨39, _⟩ => ⟨S2097152x3x5, .f32⟩
  | .hbm, ⟨40, _⟩ => ⟨S2097152x1x5, .i1⟩
  | .hbm, ⟨41, _⟩ => ⟨S2097152x1x5, .f32⟩
  | .hbm, ⟨42, _⟩ => ⟨S2097152x3x5, .f32⟩
  | .hbm, ⟨43, _⟩ => ⟨S2097152x3x5, .f32⟩
  | .hbm, ⟨44, _⟩ => ⟨S2097152x3x5, .f32⟩
  | .hbm, ⟨45, _⟩ => ⟨S2097152x3x5, .f32⟩
  | .hbm, ⟨46, _⟩ => ⟨S_, .f32⟩
  | .hbm, ⟨47, _⟩ => ⟨S2097152, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | _, _ => ⟨S2097152x3x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_call1_v0 : Ref sig .tc := ⟨.hbm, 21, rfl⟩
abbrev main_call1_v1 : Ref sig .tc := ⟨.hbm, 22, rfl⟩
abbrev main_v3 : Ref sig .tc := ⟨.hbm, 23, rfl⟩
abbrev main_call2_v0 : Ref sig .tc := ⟨.hbm, 24, rfl⟩
abbrev main_call2_v1 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_v4 : Ref sig .tc := ⟨.hbm, 29, rfl⟩
abbrev main_cst : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst_1 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst_2 : Ref sig .tc := ⟨.hbm, 46, rfl⟩
abbrev main_v19 : Ref sig .tc := ⟨.hbm, 47, rfl⟩
abbrev main_cst_3 : Ref sig .tc := ⟨.hbm, 48, rfl⟩
abbrev main_v20 : Ref sig .tc := ⟨.hbm, 49, rfl⟩
abbrev main_cst_4 : Ref sig .tc := ⟨.hbm, 50, rfl⟩
abbrev main_v21 : Ref sig .tc := ⟨.hbm, 51, rfl⟩

abbrev nD : Nat := 1
abbrev τ : Topo := Topo.v7x

variable {F : FTy → Type} [FloatOps F]

class Facts₀ : Prop where
  reducesTo_S2097152x3x5_S2097152x5_d1 : S2097152x3x5.ReducesTo [1] S2097152x5
  h_S_ : 0 < S_.numel
  bcast_S_S2097152x5 : S_.BroadcastsInDim S2097152x5 (![] : Fin 0 → Fin S2097152x5.rank)
  bcast_S2097152x5_S2097152x1x5_0_2 : S2097152x5.BroadcastsInDim S2097152x1x5 (![0, 2] : Fin 2 → Fin S2097152x1x5.rank)
  bcast_S2097152x1x5_S2097152x3x5_0_1_2 : S2097152x1x5.BroadcastsInDim S2097152x3x5 (![0, 1, 2] : Fin 3 → Fin S2097152x3x5.rank)
  bcast_S1x3x1_S2097152x3x5_0_1_2 : S1x3x1.BroadcastsInDim S2097152x3x5 (![0, 1, 2] : Fin 3 → Fin S2097152x3x5.rank)
  bcast_S_S2097152x3x5 : S_.BroadcastsInDim S2097152x3x5 (![] : Fin 0 → Fin S2097152x3x5.rank)
  reducesTo_S2097152x3x5_S2097152_d1_2 : S2097152x3x5.ReducesTo [1, 2] S2097152
  reducesTo_S2097152_S_d0 : S2097152.ReducesTo [0] S_

variable [Facts₀]

class Facts : Prop extends Facts₀ where

variable [Facts]
-- ==== Proof.Column.lean ====
/-
  One column of the loss. A column is one (sample, target) pair: three class scores `x : Fin 3 → EReal` and one
  integer label `l`. The smoothed cross entropy of the column is

      ∑ c, -(w l c) · (log-softmax x) c,      w l c = (1/15 + 4/5 · [c = label]) · [label ≠ -100]

  where the two float constants stay the binary words both programs print (the same word on both sides is never
  evaluated), the ignored label -100 zeroes the whole weight, and the log-softmax subtracts the column's largest score
  before exponentiating. Everything here is stated on the extended reals and over literal index types, and no program
  is imported: the kernel's payload and the reference's stages are both read as these functions.

  The algebra the two programs differ by, all of it independent of the scores:
  * a one-bit word read as a float is 0 or 1, whether it is widened to 32 bits and read signed or read unsigned
    directly (`sitofp_extui_bit`, `uitofp_bit`);
  * equality of words is symmetric (`cmpi_eq_comm`);
  * multiplying by the 0/1 validity twice is multiplying by it once, because 0 annihilates and 1 is neutral on the
    extended reals (`weight_twice`) — no finiteness is needed since the other factor is never opened;
  * the largest of `-∞` (as whatever word stands for the fold's start) and a fold of `max` from that start is the
    fold (`max_start_colMax`);
  * `0 - w = -w` (`zero_sub`, used where the kernel negates by subtracting from a zero splat).
-/
import Idealize.ShloMosaic.PureOps.Ideal
import Idealize.ShloMosaic.PureOps.Ideal.Laws

noncomputable section

namespace Cert.Lsr

open Idealize.ShloMosaic

/-! ## The column's functions -/

/-- The largest of the three scores: the fold of `max` from the word both programs start their maximum from. -/
def colMax (x : Fin 3 → EReal) : EReal :=
  (Finset.univ : Finset (Fin 3)).fold max (Ideal.ofBits .f32 0xFF800000#32) x

/-- The log-softmax of the column at class `c`, computed the shifted way both programs compute it. -/
def logProb (x : Fin 3 → EReal) (c : Fin 3) : EReal :=
  (x c - colMax x) - Ideal.log (∑ k : Fin 3, Ideal.exp (x k - colMax x))

/-- The label is a real target, not the fill-up value -100. -/
def valid (l : BitVec 32) : BitVec 1 := IntOp.cmpi .ne l 4294967196#32

/-- The label with the fill-up value replaced by class 0. -/
def safe (l : BitVec 32) : BitVec 32 := Scalar.select (valid l) l 0#32

/-- A one-bit word as the extended real 0 or 1. -/
def bit (b : BitVec 1) : EReal := ((b.toNat : ℝ) : EReal)

/-- Class `c` is the (safe) label. -/
def hot (l : BitVec 32) (c : Fin 3) : BitVec 1 := IntOp.cmpi .eq (BitVec.ofNat 32 c.val) (safe l)

/-- The smoothed target distribution at class `c`, zero for an ignored label. -/
def weight (l : BitVec 32) (c : Fin 3) : EReal :=
  (Ideal.ofBits .f32 0x3D888889#32 + Ideal.ofBits .f32 0x3F4CCCCD#32 * bit (hot l c)) * bit (valid l)

/-- One class's contribution to the column's loss. -/
def term (x : Fin 3 → EReal) (l : BitVec 32) (c : Fin 3) : EReal := -(weight l c) * logProb x c

/-! ## One-bit words -/

theorem bit_cases (b : BitVec 1) : b = 0#1 ∨ b = 1#1 := by
  revert b; decide

theorem bit_zero : bit 0#1 = 0 := by simp [bit]
theorem bit_one : bit 1#1 = 1 := by simp [bit]

/-- Widened to 32 bits and read as a signed integer, a bit is still 0 or 1. -/
theorem sitofp_extui_bit (b : BitVec 1) : (((b.setWidth 32).toInt : ℝ) : EReal) = bit b := by
  rcases bit_cases b with rfl | rfl
  · have : ((0#1 : BitVec 1).setWidth 32).toInt = 0 := by decide
    rw [this, bit_zero]; simp
  · have : ((1#1 : BitVec 1).setWidth 32).toInt = 1 := by decide
    rw [this, bit_one]; simp

/-- Equality of words does not depend on the order of the operands. -/
theorem cmpi_eq_comm (a b : BitVec 32) : IntOp.cmpi .eq a b = IntOp.cmpi .eq b a := by
  show BitVec.ofBool (a == b) = BitVec.ofBool (b == a)
  rw [BEq.comm]

/-! ## The weight, masked once or twice -/

/-- Masking the one-hot part by the validity and then the whole weight by it again is masking the whole weight once:
    at validity 0 both sides are a product with 0, at validity 1 every mask is a product with 1. -/
theorem weight_twice (a k : EReal) (h v : BitVec 1) :
    (a + (k * bit h) * bit v) * bit v = (a + k * bit h) * bit v := by
  rcases bit_cases v with rfl | rfl
  · rw [bit_zero, mul_zero, mul_zero]
  · simp only [bit_one, mul_one]

/-! ## The maximum's start -/

/-- A fold of `max` is at least its start, so taking the larger of the start and the fold changes nothing. -/
theorem max_start_colMax (x : Fin 3 → EReal) : max (Ideal.ofBits .f32 0xFF800000#32) (colMax x) = colMax x :=
  max_eq_right ((Finset.le_fold_max _).mpr (Or.inl le_rfl))

end Cert.Lsr

end
-- ==== Proof.BlockOps.lean ====
/-
  The kernel's block operations read at coordinates. A block of the kernel holds, for 16384 consecutive samples on the
  last axis, the three class scores of the five targets ([3, 5, 16384]) or one word per target ([5, 16384]). Each lemma
  reads ONE operation of those shapes at an index written with literal coordinates — class `c : Fin 3`, target
  `t : Fin 5`, sample-in-block `q : Fin 16384` — as the operand at coordinates:
  * a [5, N] value given a leading unit axis is itself at (t, q); a [1, 5, N] value repeated over the classes is its
    row 0 at (t, q) whatever the class;
  * the class number written by the iota along axis 0 is `c`;
  * the maximum over the class axis is the fold of `max` over the three scores of the column (`Lsr.colMax`), and a sum
    over the class axis, then over the target axis, is a sum over `Fin 3`, then over `Fin 5`;
  * a [N] value given a leading unit axis is itself at `q`.
  The shape facts and the reductions' format and start-value proofs are variables, the start-value proof typed as an
  equation between the two literal words (as the printed program's are), so whatever proofs it carries match.
-/
import proofs.«146227_j51548197487170_2_alg».proof.KernelIdeal
import proofs.«146227_j51548197487170_2_alg».proof.Proof.Column
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Idealize.ShloMosaic Idealize.ShloMosaic.ValueIdx Cert.KernelIdeal

variable {α : Type}

/-! ## Layout -/

/-- A per-(target, sample) value viewed with a leading unit axis. -/
theorem keepdims_apply (v : S5x16384.Idx → α) (h : S5x16384.ShapeCasts S1x5x16384) (u : Fin 1) (t : Fin 5) (q : Fin 16384) :
    shapeCast S1x5x16384 v h (ix3 u t q) = v (ix2 t q) :=
  shapeCast_ab_1ab_apply v h u t q

/-- A value with a unit class axis repeated over the three classes: class `c` reads row 0. -/
theorem over_classes_apply (w : S1x5x16384.Idx → α) (h : S1x5x16384.Broadcasts S3x5x16384) (c : Fin 3) (t : Fin 5) (q : Fin 16384) :
    broadcastTo S3x5x16384 w h (ix3 c t q) = w (ix3 (0 : Fin 1) t q) :=
  broadcastTo_apply w h (ix3 c t q) (ix3 (0 : Fin 1) t q) fun a => match a with
    | ⟨0, _⟩ => rfl
    | ⟨1, _⟩ => rfl
    | ⟨2, _⟩ => rfl

/-- A per-sample value viewed with a leading unit axis. -/
theorem row_apply (v : S16384.Idx → α) (h : S16384.ShapeCasts S1x16384) (u : Fin 1) (q : Fin 16384) :
    shapeCast S1x16384 v h (ix2 u q) = v (ix1 q) :=
  shapeCast_a_1a_apply v h u q

/-- The class number along axis 0. -/
theorem class_iota_apply (h : S3x5x16384.Iotas .tc 32 [0]) (c : Fin 3) (t : Fin 5) (q : Fin 16384) :
    iota .tc S3x5x16384 32 [0] h (ix3 c t q) = BitVec.ofNat 32 c.val :=
  iota_single_apply .tc S3x5x16384 32 0 h (ix3 c t q)

/-! ## Reductions over the class axis and over the target axis -/

/-- The index (t, q) with class `c` put back on the reduced axis is (c, t, q). -/
theorem lift_class (h : S3x5x16384.Reduces [0] S5x16384) (t : Fin 5) (q : Fin 16384) (c : Fin 3) :
    h.lift (ix2 t q) c = ix3 c t q :=
  funext fun a => Fin.ext (by match a with | ⟨0, _⟩ => rfl | ⟨1, _⟩ => rfl | ⟨2, _⟩ => rfl)

/-- The index q with target `t` put back on the reduced axis is (t, q). -/
theorem lift_target (h : S5x16384.Reduces [0] S16384) (q : Fin 16384) (t : Fin 5) :
    h.lift (ix1 q) t = ix2 t q :=
  funext fun a => Fin.ext (by match a with | ⟨0, _⟩ => rfl | ⟨1, _⟩ => rfl)

/-- The maximum over the classes at (t, q) is the column's largest score. -/
theorem max_classes_apply (v : FVec Ideal S3x5x16384 .f32) (h : S3x5x16384.Reduces [0] S5x16384) (hφ : FKind.Formats .f32)
    (hacc : (0xFF800000#32 : BitVec 32) = 0xFF800000#32) (t : Fin 5) (q : Fin 16384) :
    multiReduction .maximumf [0] S5x16384 v 0xFF800000#32 h hφ hacc (ix2 t q) = Cert.Lsr.colMax fun c => v (ix3 c t q) :=
  (Ideal.multiReduction_maximumf_single v 0xFF800000#32 h hφ hacc (ix2 t q)).trans
    (congrArg (fun f : Fin 3 → EReal => (Finset.univ : Finset (Fin 3)).fold max (Ideal.ofBits .f32 0xFF800000#32) f)
      (funext fun c => congrArg v (lift_class h t q c)))

/-- The sum over the classes at (t, q). -/
theorem sum_classes_apply (v : FVec Ideal S3x5x16384 .f32) (h : S3x5x16384.Reduces [0] S5x16384) (hφ : FKind.Formats .f32)
    (hacc : (0x00000000#32 : BitVec 32) = 0x00000000#32) (t : Fin 5) (q : Fin 16384) :
    multiReduction .add [0] S5x16384 v 0x00000000#32 h hφ hacc (ix2 t q) = ∑ c : Fin 3, v (ix3 c t q) :=
  (Ideal.multiReduction_add_single v 0x00000000#32 h hφ hacc (ix2 t q)).trans
    (Finset.sum_congr rfl fun c _ => congrArg v (lift_class h t q c))

/-- The sum over the targets at q. -/
theorem sum_targets_apply (v : FVec Ideal S5x16384 .f32) (h : S5x16384.Reduces [0] S16384) (hφ : FKind.Formats .f32)
    (hacc : (0x00000000#32 : BitVec 32) = 0x00000000#32) (q : Fin 16384) :
    multiReduction .add [0] S16384 v 0x00000000#32 h hφ hacc (ix1 q) = ∑ t : Fin 5, v (ix2 t q) :=
  (Ideal.multiReduction_add_single v 0x00000000#32 h hφ hacc (ix1 q)).trans
    (Finset.sum_congr rfl fun t _ => congrArg v (lift_target h q t))

end Cert.KernelIdeal.Block

end
-- ==== Proof.Payload.lean ====
/-
  The kernel body's stored value at an index. The body stores ONE [1, 16384] row per block: for sample-in-block `q`
  the sum over the five targets of the sum over the three classes of

      (0 - (w₁ + w₂ · [class = safe label]) · [label valid]) · ((x - max) - log ∑ exp (x - max)),

  `w₁`, `w₂` the words the program prints for 1/15 and 4/5 (kept as words: the reference prints the same two),

  every vector operation read at the coordinates (class, target, q). That is `∑ t, ∑ c, Lsr.term` of the column
  (scores `x0 (·, t, q)`, label `x1 (t, q)`): the reductions over the class and target axes are finite sums and a
  fold of `max` (BlockOps.lean), the one-bit words widened and read signed are 0 or 1, and subtracting from the zero
  splat is negating (Column.lean).
-/
import proofs.«146227_j51548197487170_2_alg».proof.Proof.Gen.KernelIdeal.Skeleton
import proofs.«146227_j51548197487170_2_alg».proof.Proof.BlockOps

noncomputable section

namespace Cert.KernelIdeal.Block

open Idealize.ShloMosaic Idealize.ShloMosaic.ValueIdx Cert.KernelIdeal Cert.KernelIdeal.Gen

/-! ## Pointwise operations at an index (definitional) -/

theorem exp_apply {s : Shape} (v : FVec Ideal s .f32) (i : s.Idx) : exp v i = Ideal.exp (v i) := rfl
theorem log_apply {s : Shape} (v : FVec Ideal s .f32) (i : s.Idx) : log v i = Ideal.log (v i) := rfl
theorem cmpi_apply {s : Shape} {w : Nat} (p : CmpIPredicate) (a b : IVec s w) (i : s.Idx) :
    cmpi p a b i = IntOp.cmpi p (a i) (b i) := rfl
theorem sitofp_ideal_apply {s : Shape} {w : Nat} (x : IVec s w) (i : s.Idx) :
    (sitofp .f32 x : FVec Ideal s .f32) i = (((x i).toInt : ℝ) : EReal) := rfl
theorem scalar_ofBits_ideal (b : BitVec 32) : Scalar.ofBits (F := Ideal) .f32 b = Ideal.ofBits .f32 b := rfl

/-! ## The payload -/

/-- The stored row at `q` is the sum, over the column's targets and classes, of the column's loss terms. -/
theorem pay_apply (x0 : Vec Ideal S3x5x16384 .f32) (x1 : Vec Ideal S5x16384 .i32) (u : Fin 1) (q : Fin 16384) :
    k0_pay1 (F := Ideal) x0 x1 (ix2 u q)
      = ∑ t : Fin 5, ∑ c : Fin 3, Cert.Lsr.term (fun k => x0 (ix3 k t q)) (x1 (ix2 t q)) c := by
  unfold k0_pay1
  rw [row_apply, sum_targets_apply]
  refine Finset.sum_congr rfl fun t _ => ?_
  rw [sum_classes_apply]
  refine Finset.sum_congr rfl fun c _ => ?_
  simp only [mulf_apply, subf_apply, addf_apply, broadcast_apply, over_classes_apply, keepdims_apply, class_iota_apply,
    shapeCast_self, exp_apply, log_apply, cmpi_apply, select_apply, extui_apply, sitofp_ideal_apply, scalar_ofBits_ideal]
  rw [sum_classes_apply]
  simp only [subf_apply, over_classes_apply, keepdims_apply, shapeCast_self, exp_apply]
  rw [max_classes_apply]
  rw [class_iota_apply, Cert.Lsr.sitofp_extui_bit, Cert.Lsr.sitofp_extui_bit, Ideal.ofBits_zero_f32, zero_sub]
  rfl

end Cert.KernelIdeal.Block

end
-- ==== Proof.Loss.lean ====
/-
  The whole loss, and the two ways the programs add it up. With `term x l c` the contribution of class `c` to one
  column's smoothed cross entropy (Column.lean), sample `b`'s loss is the sum of its fifteen terms and the result is
  the sum over the 2097152 samples divided by the word both programs print for their number:

      meanLoss pred lab = (∑ b, ∑ t, ∑ c, term (pred b · t) (lab b t) c) / ofBits 0x4A000000.

  The kernel adds classes, then targets, inside each block, writes the per-sample losses as a [1, 2097152] array and
  sums that array on the host (`sum_rows`); the reference sums all 2097152 · 3 · 5 terms of its [2097152, 3, 5] array,
  first over (class, target) per sample, then over the samples (`sum_cells`). Both are the same finite sum in a
  commutative monoid — the extended reals under + — so only re-indexing and the exchange of two finite sums are
  used, and nothing needs the terms to be finite.
-/
import proofs.«146227_j51548197487170_2_alg».proof.Proof.Column
import Idealize.ShloMosaic.Lib.ValueIdx

noncomputable section

namespace Cert.Lsr

open Idealize.ShloMosaic Idealize.ShloMosaic.ValueIdx

/-- The loss of sample `b`: its five targets' columns, each summed over the three classes. -/
def rowLoss (pred : (⟨3, ![2097152, 3, 5]⟩ : Shape).Idx → EReal) (lab : (⟨2, ![2097152, 5]⟩ : Shape).Idx → BitVec 32)
    (b : Fin 2097152) : EReal :=
  ∑ t : Fin 5, ∑ c : Fin 3, term (fun k => pred (ix3 b k t)) (lab (ix2 b t)) c

/-- The result both programs compute: the samples' losses summed, divided by the printed sample count. -/
def meanLoss (pred : (⟨3, ![2097152, 3, 5]⟩ : Shape).Idx → EReal) (lab : (⟨2, ![2097152, 5]⟩ : Shape).Idx → BitVec 32) : EReal :=
  Ideal.div (∑ b : Fin 2097152, rowLoss pred lab b) (Ideal.ofBits .f32 0x4A000000#32)

/-! ## Sums over index sets as sums over coordinates -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The kernel's arrangement: a [1, 2097152] array whose entry (0, b) is a function of `b`, summed over all its
    indices, is the sum over the samples. -/
theorem sum_rows {M : Type*} [AddCommMonoid M] (g : Fin 2097152 → M) :
    ∑ j : (⟨2, ![1, 2097152]⟩ : Shape).Idx, g (j 1) = ∑ b : Fin 2097152, g b := by
  rw [sum_idx2, Fin.sum_univ_one]

/-- The reference's arrangement: a [2097152, 3, 5] array whose entry (b, c, t) is a function of the coordinates,
    summed over all its indices, is the sum over samples, then targets, then classes. -/
theorem sum_cells {M : Type*} [AddCommMonoid M] (g : Fin 2097152 → Fin 3 → Fin 5 → M) :
    ∑ i : (⟨3, ![2097152, 3, 5]⟩ : Shape).Idx, g (i 0) (i 1) (i 2) = ∑ b : Fin 2097152, ∑ t : Fin 5, ∑ c : Fin 3, g b c t := by
  rw [sum_idx3]
  exact Finset.sum_congr rfl fun b _ => Finset.sum_comm

end Cert.Lsr

end
-- ==== Proof.KernelValue.lean ====
/-
  The kernel's result from its blocks. The host transposes the scores to [3, 5, 2097152] and the labels to
  [5, 2097152]; the region walks the last axis in 128 blocks of 16384 samples, block `t` of each input window being
  samples `16384 t … 16384 t + 16383`; each point writes one [1, 16384] row, block `t` of the [1, 2097152] output;
  after the region the host sums that array and divides by the sample count.
  * An input block read at in-block coordinates is the transposed array at the global sample `16384 t + q`, and the
    transposed arrays read at (class, target, sample) are the arguments at (sample, class, target).
  * So what point `t` writes back is block `t` of ONE function of the arguments — entry (0, b) is sample `b`'s loss
    (`Lsr.rowLoss`) — and the 128 blocks cover the output array (sample `b` is in block `b / 16384`): the array
    after the region is that function.
  * The host tail's result is then the sum of the samples' losses over the printed count: `Lsr.meanLoss`.
  The steps from a point's write-back to the whole array follow the library's cover lemma
  (`Dat.arrAt_eq_of_cover`); the run is the frame run with its post read at the result buffer.
-/
import proofs.«146227_j51548197487170_2_alg».proof.Proof.Gen.KernelIdeal.Frame
import proofs.«146227_j51548197487170_2_alg».proof.Proof.Payload
import proofs.«146227_j51548197487170_2_alg».proof.Proof.Loss
import Idealize.ShloMosaic.Lib.Pipeline.Value
import Idealize.ShloMosaic.Lib.StableHlo.Run
import Idealize.ShloMosaic.PureOps.Ideal.Laws

set_option maxRecDepth 16384

noncomputable section

namespace Cert.KernelIdeal.Whole

open Idealize.ShloMosaic Idealize.ShloMosaic.ValueIdx Idealize.ShloMosaic.TcCoe Idealize.SL.Sem
open Cert.KernelIdeal Cert.KernelIdeal.Gen Cert.KernelIdeal.Block
open Idealize.ShloMosaic.Pipeline (Dat)

variable (m : (ℓ : Loc nD τ sig) → Buf (Elt Ideal) ℓ) (ρ : Dev nD → PrngReg)

/-! ## The arrays the region finds -/

/-- The scores as the region finds them: the argument transposed to (class, target, sample). -/
theorem V_scores (c : Dev nD) :
    (V m c main_v0 : S3x5x2097152.Idx → EReal)
      = transpose S3x5x2097152 [1, 2, 0] (m ((c : Thread nD τ).loc main_arg0)) transposes_S2097152x3x5_S3x5x2097152_1_2_0 := by
  show StableHlo.after hostOps0 (fun b => m (c, b)) (Proc.devRef .tc main_v0) = _
  after_results <;> rfl

/-- The labels as the region finds them: the argument transposed to (target, sample). -/
theorem V_labels (c : Dev nD) :
    (V m c main_v1 : S5x2097152.Idx → BitVec 32)
      = transpose S5x2097152 [1, 0] (m ((c : Thread nD τ).loc main_arg1)) transposes_S2097152x5_S5x2097152_1_0 := by
  show StableHlo.after hostOps0 (fun b => m (c, b)) (Proc.devRef .tc main_v1) = _
  after_results <;> rfl

/-- The transposed scores at (class, target, sample) are the scores at (sample, class, target). -/
theorem scores_apply (X : S2097152x3x5.Idx → EReal) (h : S2097152x3x5.Transposes [1, 2, 0] S3x5x2097152)
    (k : Fin 3) (t : Fin 5) (b : Fin 2097152) : transpose S3x5x2097152 [1, 2, 0] X h (ix3 k t b) = X (ix3 b k t) :=
  transpose_apply [1, 2, 0] X h (ix3 k t b) (ix3 b k t) fun a => match a with
    | ⟨0, _⟩ => rfl
    | ⟨1, _⟩ => rfl
    | ⟨2, _⟩ => rfl

/-- The transposed labels at (target, sample) are the labels at (sample, target). -/
theorem labels_apply (L : S2097152x5.Idx → BitVec 32) (h : S2097152x5.Transposes [1, 0] S5x2097152)
    (t : Fin 5) (b : Fin 2097152) : transpose S5x2097152 [1, 0] L h (ix2 t b) = L (ix2 b t) :=
  transpose_apply [1, 0] L h (ix2 t b) (ix2 b t) fun a => match a with
    | ⟨0, _⟩ => rfl
    | ⟨1, _⟩ => rfl

/-! ## The blocks -/

/-- The printed index maps over the 128 points: every window sits at block `t` of its last axis and block 0 elsewhere. -/
theorem idx_facts : ∀ t : Fin cfg0.N,
    win0_0.index t (0 : Fin 3) = 0 ∧ win0_0.index t (1 : Fin 3) = 0 ∧ win0_0.index t (2 : Fin 3) = t.val
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

theorem point_lt (t : Fin cfg0.N) : t.val < 128 := by
  have h : cfg0.N = 128 := N_0
  have := t.isLt
  omega

/-- The scores' block at point `t`, read at in-block coordinates, is the transposed array at sample `16384 t + q`. -/
theorem block_scores (c : Dev nD) (t : Fin cfg0.N) (k : Fin 3) (t' : Fin 5) (q : Fin 16384)
    (hb : t.val * 16384 + q.val < 2097152) :
    iblk m c 0 t (ix3 k t' q) = V m c main_v0 (ix3 k t' ⟨t.val * 16384 + q.val, hb⟩) := by
  show V m c main_v0 (((cfg0.win 0).blk t).view.emb (ix3 k t' q)) = V m c main_v0 _
  obtain ⟨e0, e1, e2, -⟩ := idx_facts t
  refine congrArg (V m c main_v0) (funext fun a => Fin.ext ?_)
  match a with
  | ⟨0, _⟩ => show win0_0.index t (0 : Fin 3) * 3 + 1 * k.val = k.val; omega
  | ⟨1, _⟩ => show win0_0.index t (1 : Fin 3) * 5 + 1 * t'.val = t'.val; omega
  | ⟨2, _⟩ => show win0_0.index t (2 : Fin 3) * 16384 + 1 * q.val = t.val * 16384 + q.val; omega

/-- The labels' block likewise. -/
theorem block_labels (c : Dev nD) (t : Fin cfg0.N) (t' : Fin 5) (q : Fin 16384)
    (hb : t.val * 16384 + q.val < 2097152) :
    iblk m c 1 t (ix2 t' q) = V m c main_v1 (ix2 t' ⟨t.val * 16384 + q.val, hb⟩) := by
  show V m c main_v1 (((cfg0.win 1).blk t).view.emb (ix2 t' q)) = V m c main_v1 _
  obtain ⟨-, -, -, e3, e4, -⟩ := idx_facts t
  refine congrArg (V m c main_v1) (funext fun a => Fin.ext ?_)
  match a with
  | ⟨0, _⟩ => show win0_1.index t (0 : Fin 2) * 5 + 1 * t'.val = t'.val; omega
  | ⟨1, _⟩ => show win0_1.index t (1 : Fin 2) * 16384 + 1 * q.val = t.val * 16384 + q.val; omega

/-! ## The output array -/

/-- The array the region leaves: entry (0, b) is sample `b`'s loss. -/
def rows (pred : S2097152x3x5.Idx → EReal) (lab : S2097152x5.Idx → BitVec 32) : S1x2097152.Idx → EReal :=
  fun j => Cert.Lsr.rowLoss pred lab (j 1)

theorem hz2 : (![0, 0] : Fin 2 → Nat) = fun _ => 0 := funext fun a => by fin_cases a <;> rfl
theorem hz3 : (![0, 0, 0] : Fin 3 → Nat) = fun _ => 0 := funext fun a => by fin_cases a <;> rfl

/-- WHAT POINT `t` WRITES BACK is block `t` of `rows` of the arguments. -/
theorem flushed_eq (c : Dev nD) (t : Fin cfg0.N) :
    (dats m 0 c).flushed 2 t
      = ((cfg0.win 2).blk t).view.read (Elt Ideal)
          (rows (m ((c : Thread nD τ).loc main_arg0)) (m ((c : Thread nD τ).loc main_arg1))) := by
  show (cfg0.win 2).cut (grid0.coords t) ((dats m 0 c).after 2 t) = _
  rw [after0_2]
  unfold out0_2
  rw [View.canon_unit_zero hz2]
  simp only [View.ld_unit_zero (S := S3x5x16384) hz3, View.ld_unit_zero (S := S5x16384) hz2]
  funext y
  obtain ⟨u, q, rfl⟩ : ∃ (u : Fin 1) (q : Fin 16384), y = ix2 u q := ⟨y 0, y 1, eq_ix2 y⟩
  have ht := point_lt t
  have hu := u.isLt
  have hq := q.isLt
  have hb : t.val * 16384 + q.val < 2097152 := by omega
  show k0_pay1 (iblk m c 0 t) (iblk m c 1 t) (ix2 u q)
    = rows (m ((c : Thread nD τ).loc main_arg0)) (m ((c : Thread nD τ).loc main_arg1)) (((cfg0.win 2).blk t).view.emb (ix2 u q))
  refine (pay_apply (iblk m c 0 t) (iblk m c 1 t) u q).trans ?_
  have hemb : ((cfg0.win 2).blk t).view.emb (ix2 u q) = ix2 (0 : Fin 1) ⟨t.val * 16384 + q.val, hb⟩ := by
    obtain ⟨-, -, -, -, -, e5, e6⟩ := idx_facts t
    funext a; apply Fin.ext
    match a with
    | ⟨0, _⟩ => show win0_2.index t (0 : Fin 2) * 1 + 1 * u.val = 0; omega
    | ⟨1, _⟩ => show win0_2.index t (1 : Fin 2) * 16384 + 1 * q.val = t.val * 16384 + q.val; omega
  rw [hemb]
  show _ = Cert.Lsr.rowLoss _ _ ⟨t.val * 16384 + q.val, hb⟩
  unfold Cert.Lsr.rowLoss
  refine Finset.sum_congr rfl fun t' _ => Finset.sum_congr rfl fun k _ => ?_
  have hl : iblk m c 1 t (ix2 t' q) = m ((c : Thread nD τ).loc main_arg1) (ix2 ⟨t.val * 16384 + q.val, hb⟩ t') := by
    rw [block_labels m c t t' q hb, V_labels, labels_apply]
  have hs : (fun k' : Fin 3 => iblk m c 0 t (ix3 k' t' q))
      = fun k' => m ((c : Thread nD τ).loc main_arg0) (ix3 ⟨t.val * 16384 + q.val, hb⟩ k' t') := by
    funext k'
    rw [block_scores m c t k' t' q hb, V_scores, scores_apply]
  rw [hl, hs]

/-- An index of the output array is in point `t`'s block iff each coordinate is in the block's range on its axis. -/
theorem mem_blk (t : Fin cfg0.N) (i : S1x2097152.Idx) :
    i ∈ ((cfg0.win 2).blk t).view.set ↔ ∀ a : Fin 2, win0_2.index t a * S1x16384.size a ≤ (i a).val ∧ (i a).val < win0_2.index t a * S1x16384.size a + S1x16384.size a := by
  show i ∈ ((View.whole main_v2).slice (win0_2.rect t)).set ↔ _
  rw [View.set_slice_whole, Rect.mem_set_unit]
  exact Iff.rfl

/-- Every index of the output array is in some point's block: sample `b` in block `b / 16384`. -/
theorem cover (i : S1x2097152.Idx) :
    ∃ t : Fin cfg0.N, (cfg0.win 2).flush t = true ∧ i ∈ ((cfg0.win 2).blk t).view.set := by
  have h0 : (i 0).val < 1 := (i 0).isLt
  have h1 : (i 1).val < 2097152 := (i 1).isLt
  have hN : grid0.N = 128 := N_0
  have hlt : (i 1).val / 16384 < cfg0.N := by show (i 1).val / 16384 < grid0.N; omega
  obtain ⟨-, -, -, -, -, e5, e6⟩ := idx_facts ⟨(i 1).val / 16384, hlt⟩
  refine ⟨⟨(i 1).val / 16384, hlt⟩, flush0_2 _, ?_⟩
  rw [mem_blk]
  intro a
  match a with
  | ⟨0, _⟩ =>
    show win0_2.index ⟨(i 1).val / 16384, hlt⟩ (0 : Fin 2) * 1 ≤ (i 0).val ∧ (i 0).val < win0_2.index ⟨(i 1).val / 16384, hlt⟩ (0 : Fin 2) * 1 + 1
    omega
  | ⟨1, _⟩ =>
    show win0_2.index ⟨(i 1).val / 16384, hlt⟩ (1 : Fin 2) * 16384 ≤ (i 1).val ∧ (i 1).val < win0_2.index ⟨(i 1).val / 16384, hlt⟩ (1 : Fin 2) * 16384 + 16384
    have e6' : win0_2.index ⟨(i 1).val / 16384, hlt⟩ (1 : Fin 2) = (i 1).val / 16384 := e6
    omega

/-- THE ARRAY after the region: `rows` of the arguments. -/
theorem final (c : Dev nD) :
    (dats m 0 c).arrAt 2 cfg0.N = rows (m ((c : Thread nD τ).loc main_arg0)) (m ((c : Thread nD τ).loc main_arg1)) :=
  (dats m 0 c).arrAt_eq_of_cover 2 _ (fun t _ => flushed_eq m c t) cover

end Cert.KernelIdeal.Whole

end
-- ==== Proof.KernelRun.lean ====
/-
  The kernel program's result. After the region the host sums the [1, 2097152] array of per-sample losses — at the
  ideal instance the start word plus the sum over every index — and divides by the word printed for the sample
  count. The array is `rows` of the arguments (KernelValue.lean), its total over all indices is the sum over the
  samples (a one-row array), the start word is zero: the result buffer ends at `Lsr.meanLoss` of the arguments, which
  end unchanged. The run is the frame run with its post read at the result buffer and at the two arguments.
-/
import proofs.«146227_j51548197487170_2_alg».proof.Proof.KernelValue

set_option maxRecDepth 16384

noncomputable section

namespace Cert.KernelIdeal.Whole

open Idealize.ShloMosaic Idealize.ShloMosaic.ValueIdx Idealize.ShloMosaic.TcCoe Idealize.SL.Sem
open Cert.KernelIdeal Cert.KernelIdeal.Gen Cert.KernelIdeal.Block
open Idealize.ShloMosaic.Pipeline (Dat)

variable (m : (ℓ : Loc nD τ sig) → Buf (Elt Ideal) ℓ) (ρ : Dev nD → PrngReg)

/-- The output array as the host lines after the region find it. -/
theorem array_after (c : Dev nD) :
    Pipeline.withArrays (cfgs 0).spec c (V0 m c) (fun w => (dats m 0 c).arrAt w (cfgs 0).N) (Proc.devRef .tc main_v2)
      = rows (m ((c : Thread nD τ).loc main_arg0)) (m ((c : Thread nD τ).loc main_arg1)) :=
  (Pipeline.withArrays_arr spec0 launch0.win.arr_inj c _ _ 2).trans (final m c)

/-- The host lines after the region: the array summed from the zero word, divided by the count word. -/
theorem tail_eq (c : Dev nD) :
    Pipeline.afterTail₀ cfgs (dats m) 0 (V0 m) [hostOps1] c main_v4
      = Host.divf (Host.reduceAdd (F := Ideal) (rows (m ((c : Thread nD τ).loc main_arg0)) (m ((c : Thread nD τ).loc main_arg1)))
          (constant S_ .f32 0x00000000#32) reducesTo_S1x2097152_S_d0_1 h_S_) (constant S_ .f32 0x4A000000#32) := by
  unfold Pipeline.afterTail₀
  show StableHlo.after hostOps1 _ (Proc.devRef .tc main_v4) = _
  after_results
  rw [array_after]

/-- The host's sum of the whole array, at the ideal instance: the start word plus the sum over every index. -/
theorem sum_all (y : S1x2097152.Idx → EReal) (i : S_.Idx) :
    Host.reduceAdd (F := Ideal) (φ := .f32) y (constant S_ .f32 0x00000000#32) reducesTo_S1x2097152_S_d0_1 h_S_ i
      = Ideal.ofBits .f32 0x00000000#32 + ∑ j : S1x2097152.Idx, y j := by
  simp only [Host.reduceAdd, Ideal.hostReduceAdd_def]
  exact Ideal.hostReduceAdd_total reducesTo_S1x2097152_S_d0_1 (fun b => b.elim0) y _ i

/-- The result buffer after the whole program: the mean loss of the arguments. -/
theorem result_eq (c : Dev nD) :
    Pipeline.afterTail₀ cfgs (dats m) 0 (V0 m) [hostOps1] c main_v4
      = fun _ => Cert.Lsr.meanLoss (m ((c : Thread nD τ).loc main_arg0)) (m ((c : Thread nD τ).loc main_arg1)) := by
  rw [tail_eq]
  funext i
  show Ideal.div (Host.reduceAdd (F := Ideal) (φ := .f32) (rows (m ((c : Thread nD τ).loc main_arg0)) (m ((c : Thread nD τ).loc main_arg1)))
      (constant S_ .f32 0x00000000#32) reducesTo_S1x2097152_S_d0_1 h_S_ i) (Ideal.ofBits .f32 0x4A000000#32) = _
  rw [sum_all]
  show Ideal.div (Ideal.ofBits .f32 0x00000000#32
      + ∑ j : S1x2097152.Idx, Cert.Lsr.rowLoss (m ((c : Thread nD τ).loc main_arg0)) (m ((c : Thread nD τ).loc main_arg1)) (j 1))
      (Ideal.ofBits .f32 0x4A000000#32) = _
  rw [Cert.Lsr.sum_rows (Cert.Lsr.rowLoss (m ((c : Thread nD τ).loc main_arg0)) (m ((c : Thread nD τ).loc main_arg1))),
    Ideal.ofBits_zero_f32, zero_add]
  rfl

/-- THE RUN, read: every weakly fair execution terminates with the result at the mean loss of the arguments and the
    arguments unchanged. -/
theorem run : θ_run defs (onTc (τ := τ) (main (F := Ideal))) ⟨m, fun _ => 0, ρ⟩ fun r => ∀ c : Dev nD,
      r.2.mem ((c.tc : Thread nD τ).loc main_v4)
        = (fun _ => Cert.Lsr.meanLoss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v4 (Pipeline.mem_restRefs_of main_v4 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Whole

end
-- ==== Proof.RefStages.lean ====
/-
  The reference's run, read in four stretches. The reference's @main is a straight line of 50 host operations, each
  writing a buffer of its own. What the last buffer holds after the line is a fold over the operations; read as ONE
  composed term of the two arguments it is a term of full-size arrays some sixty operations deep, so here the line is
  cut where the mathematics cuts it, and each stretch is read from an ARBITRARY valuation `W` of the buffers:
  * A (15 operations): the log-softmax of the scores over the class axis, into `main_v0`;
  * B (13 operations): from the labels, the validity mask `main_v2` and the one-hot of the safe label `main_v4`;
  * C (16 operations): from those three, the product  -(smoothed weight) · log-probability, into `main_v18`;
  * D (6 operations): its sum over class and target, the sum over the samples, the quotient by the sample count,
    into `main_v21`.
  The operations of the three outlined functions reach their buffers through typed references, whose transports along
  the reference's type equation are the identity at these literal references; the stretches list every operation in the
  plain form — the same operation, by computation (`ops_eq`) — so that no reading below goes through a transport.
  A stretch leaves every buffer it does not write as it found it, so the four readings chain: the value of `main_v21`
  after the whole line is stretch D's function of stretch C's of stretch B's and A's of the arguments — which is the
  stage `val_main_v21` of the operation-by-operation reading, by unfolding names only. The two reductions are kept
  folded throughout: no equation here looks inside a sum or a maximum.
-/
import proofs.«146227_j51548197487170_2_alg».proof.Proof.Gen.ReferenceIdeal
import proofs.«146227_j51548197487170_2_alg».proof.Proof.RefRead
import Idealize.ShloMosaic.Lib.StableHlo.Run

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-! ## The four stretches -/

/-- The log-softmax over the class axis (the outlined function's operations, at its call). -/
abbrev opsA : List (HloOp τ sig (Elt F)) :=
  [ nullary main_call0_cst (constant S_ .f32 0xFF800000#32 : (⟨S_, .f32⟩ : BufTy).Contents (Elt F)),
    binary main_arg0 main_call0_cst main_call0_v0 (fun x v => Host.reduce FloatOps.maximumf x v reducesTo_S2097152x3x5_S2097152x5_d1 h_S_ : (⟨S2097152x3x5, .f32⟩ : BufTy).Contents (Elt F) → (⟨S_, .f32⟩ : BufTy).Contents (Elt F) → (⟨S2097152x5, .f32⟩ : BufTy).Contents (Elt F)),
    nullary main_call0_cst_0 (constant S_ .f32 0xFF800000#32 : (⟨S_, .f32⟩ : BufTy).Contents (Elt F)),
    unary main_call0_cst_0 main_call0_v1 (broadcastInDim S2097152x5 ![] bcast_S_S2097152x5 : (⟨S_, .f32⟩ : BufTy).Contents (Elt F) → (⟨S2097152x5, .f32⟩ : BufTy).Contents (Elt F)),
    binary main_call0_v1 main_call0_v0 main_call0_v2 (maximumf : (⟨S2097152x5, .f32⟩ : BufTy).Contents (Elt F) → (⟨S2097152x5, .f32⟩ : BufTy).Contents (Elt F) → (⟨S2097152x5, .f32⟩ : BufTy).Contents (Elt F)),
    unary main_call0_v2 main_call0_v3 (broadcastInDim S2097152x1x5 ![0, 2] bcast_S2097152x5_S2097152x1x5_0_2 : (⟨S2097152x5, .f32⟩ : BufTy).Contents (Elt F) → (⟨S2097152x1x5, .f32⟩ : BufTy).Contents (Elt F)),
    unary main_call0_v3 main_call0_v4 (broadcastInDim S2097152x3x5 ![0, 1, 2] bcast_S2097152x1x5_S2097152x3x5_0_1_2 : (⟨S2097152x1x5, .f32⟩ : BufTy).Contents (Elt F) → (⟨S2097152x3x5, .f32⟩ : BufTy).Contents (Elt F)),
    binary main_arg0 main_call0_v4 main_call0_v5 (subf : (⟨S2097152x3x5, .f32⟩ : BufTy).Contents (Elt F) → (⟨S2097152x3x5, .f32⟩ : BufTy).Contents (Elt F) → (⟨S2097152x3x5, .f32⟩ : BufTy).Contents (Elt F)),
    unary main_call0_v5 main_call0_v6 (Host.exp : (⟨S2097152x3x5, .f32⟩ : BufTy).Contents (Elt F) → (⟨S2097152x3x5, .f32⟩ : BufTy).Contents (Elt F)),
    nullary main_call0_cst_1 (constant S_ .f32 0x00000000#32 : (⟨S_, .f32⟩ : BufTy).Contents (Elt F)),
    binary main_call0_v6 main_call0_cst_1 main_call0_v7 (fun x v => Host.reduceAdd x v reducesTo_S2097152x3x5_S2097152x5_d1 h_S_ : (⟨S2097152x3x5, .f32⟩ : BufTy).Contents (Elt F) → (⟨S_, .f32⟩ : BufTy).Contents (Elt F) → (⟨S2097152x5, .f32⟩ : BufTy).Contents (Elt F)),
    unary main_call0_v7 main_call0_v8 (broadcastInDim S2097152x1x5 ![0, 2] bcast_S2097152x5_S2097152x1x5_0_2 : (⟨S2097152x5, .f32⟩ : BufTy).Contents (Elt F) → (⟨S2097152x1x5, .f32⟩ : BufTy).Contents (Elt F)),
    unary main_call0_v8 main_call0_v9 (Host.log : (⟨S2097152x1x5, .f32⟩ : BufTy).Contents (Elt F) → (⟨S2097152x1x5, .f32⟩ : BufTy).Contents (Elt F)),
    unary main_call0_v9 main_call0_v10 (broadcastInDim S2097152x3x5 ![0, 1, 2] bcast_S2097152x1x5_S2097152x3x5_0_1_2 : (⟨S2097152x1x5, .f32⟩ : BufTy).Contents (Elt F) → (⟨S2097152x3x5, .f32⟩ : BufTy).Contents (Elt F)),
    binary main_call0_v5 main_call0_v10 main_v0 (subf : (⟨S2097152x3x5, .f32⟩ : BufTy).Contents (Elt F) → (⟨S2097152x3x5, .f32⟩ : BufTy).Contents (Elt F) → (⟨S2097152x3x5, .f32⟩ : BufTy).Contents (Elt F)) ]

/-- The validity mask, the safe label and its one-hot. -/
abbrev opsB : List (HloOp τ sig (Elt F)) :=
  [ nullary main_c (constantI S_ 32 4294967196#32),
    unary main_c main_v1 (broadcastInDim S2097152x5 ![] bcast_S_S2097152x5 : (⟨S_, .i32⟩ : BufTy).Contents (Elt F) → (⟨S2097152x5, .i32⟩ : BufTy).Contents (Elt F)),
    binary main_arg1 main_v1 main_v2 (cmpi .ne : (⟨S2097152x5, .i32⟩ : BufTy).Contents (Elt F) → (⟨S2097152x5, .i32⟩ : BufTy).Contents (Elt F) → (⟨S2097152x5, .i1⟩ : BufTy).Contents (Elt F)),
    nullary main_c_0 (constantI S_ 32 0#32),
    unary main_c_0 main_call1_v0 (id : (⟨S_, .i32⟩ : BufTy).Contents (Elt F) → (⟨S_, .i32⟩ : BufTy).Contents (Elt F)),
    unary main_call1_v0 main_call1_v1 (broadcastInDim S2097152x5 ![] bcast_S_S2097152x5 : (⟨S_, .i32⟩ : BufTy).Contents (Elt F) → (⟨S2097152x5, .i32⟩ : BufTy).Contents (Elt F)),
    ternary main_v2 main_arg1 main_call1_v1 main_v3 (select : (⟨S2097152x5, .i1⟩ : BufTy).Contents (Elt F) → (⟨S2097152x5, .i32⟩ : BufTy).Contents (Elt F) → (⟨S2097152x5, .i32⟩ : BufTy).Contents (Elt F) → (⟨S2097152x5, .i32⟩ : BufTy).Contents (Elt F)),
    unary main_v3 main_call2_v0 (broadcastInDim S2097152x1x5 ![0, 2] bcast_S2097152x5_S2097152x1x5_0_2 : (⟨S2097152x5, .i32⟩ : BufTy).Contents (Elt F) → (⟨S2097152x1x5, .i32⟩ : BufTy).Contents (Elt F)),
    nullary main_call2_v1 (iotaInDim S1x3x1 32 1 : (⟨S1x3x1, .i32⟩ : BufTy).Contents (Elt F)),
    unary main_call2_v0 main_call2_v2 (broadcastInDim S2097152x3x5 ![0, 1, 2] bcast_S2097152x1x5_S2097152x3x5_0_1_2 : (⟨S2097152x1x5, .i32⟩ : BufTy).Contents (Elt F) → (⟨S2097152x3x5, .i32⟩ : BufTy).Contents (Elt F)),
    unary main_call2_v1 main_call2_v3 (broadcastInDim S2097152x3x5 ![0, 1, 2] bcast_S1x3x1_S2097152x3x5_0_1_2 : (⟨S1x3x1, .i32⟩ : BufTy).Contents (Elt F) → (⟨S2097152x3x5, .i32⟩ : BufTy).Contents (Elt F)),
    binary main_call2_v2 main_call2_v3 main_call2_v4 (cmpi .eq : (⟨S2097152x3x5, .i32⟩ : BufTy).Contents (Elt F) → (⟨S2097152x3x5, .i32⟩ : BufTy).Contents (Elt F) → (⟨S2097152x3x5, .i1⟩ : BufTy).Contents (Elt F)),
    unary main_call2_v4 main_v4 (uitofp .f32 : (⟨S2097152x3x5, .i1⟩ : BufTy).Contents (Elt F) → (⟨S2097152x3x5, .f32⟩ : BufTy).Contents (Elt F)) ]

/-- The smoothed weight, masked, negated, times the log-probability. -/
abbrev opsC : List (HloOp τ sig (Elt F)) :=
  [ nullary main_cst (constant S_ .f32 0x3F4CCCCD#32),
    unary main_cst main_v5 (broadcastInDim S2097152x3x5 ![] bcast_S_S2097152x3x5 : (⟨S_, .f32⟩ : BufTy).Contents (Elt F) → (⟨S2097152x3x5, .f32⟩ : BufTy).Contents (Elt F)),
    binary main_v5 main_v4 main_v6 (mulf : (⟨S2097152x3x5, .f32⟩ : BufTy).Contents (Elt F) → (⟨S2097152x3x5, .f32⟩ : BufTy).Contents (Elt F) → (⟨S2097152x3x5, .f32⟩ : BufTy).Contents (Elt F)),
    unary main_v2 main_v7 (broadcastInDim S2097152x1x5 ![0, 2] bcast_S2097152x5_S2097152x1x5_0_2 : (⟨S2097152x5, .i1⟩ : BufTy).Contents (Elt F) → (⟨S2097152x1x5, .i1⟩ : BufTy).Contents (Elt F)),
    unary main_v7 main_v8 (uitofp .f32 : (⟨S2097152x1x5, .i1⟩ : BufTy).Contents (Elt F) → (⟨S2097152x1x5, .f32⟩ : BufTy).Contents (Elt F)),
    unary main_v8 main_v9 (broadcastInDim S2097152x3x5 ![0, 1, 2] bcast_S2097152x1x5_S2097152x3x5_0_1_2 : (⟨S2097152x1x5, .f32⟩ : BufTy).Contents (Elt F) → (⟨S2097152x3x5, .f32⟩ : BufTy).Contents (Elt F)),
    binary main_v6 main_v9 main_v10 (mulf : (⟨S2097152x3x5, .f32⟩ : BufTy).Contents (Elt F) → (⟨S2097152x3x5, .f32⟩ : BufTy).Contents (Elt F) → (⟨S2097152x3x5, .f32⟩ : BufTy).Contents (Elt F)),
    nullary main_cst_1 (constant S_ .f32 0x3D888889#32),
    unary main_cst_1 main_v11 (broadcastInDim S2097152x3x5 ![] bcast_S_S2097152x3x5 : (⟨S_, .f32⟩ : BufTy).Contents (Elt F) → (⟨S2097152x3x5, .f32⟩ : BufTy).Contents (Elt F)),
    binary main_v11 main_v10 main_v12 (addf : (⟨S2097152x3x5, .f32⟩ : BufTy).Contents (Elt F) → (⟨S2097152x3x5, .f32⟩ : BufTy).Contents (Elt F) → (⟨S2097152x3x5, .f32⟩ : BufTy).Contents (Elt F)),
    unary main_v2 main_v13 (broadcastInDim S2097152x1x5 ![0, 2] bcast_S2097152x5_S2097152x1x5_0_2 : (⟨S2097152x5, .i1⟩ : BufTy).Contents (Elt F) → (⟨S2097152x1x5, .i1⟩ : BufTy).Contents (Elt F)),
    unary main_v13 main_v14 (uitofp .f32 : (⟨S2097152x1x5, .i1⟩ : BufTy).Contents (Elt F) → (⟨S2097152x1x5, .f32⟩ : BufTy).Contents (Elt F)),
    unary main_v14 main_v15 (broadcastInDim S2097152x3x5 ![0, 1, 2] bcast_S2097152x1x5_S2097152x3x5_0_1_2 : (⟨S2097152x1x5, .f32⟩ : BufTy).Contents (Elt F) → (⟨S2097152x3x5, .f32⟩ : BufTy).Contents (Elt F)),
    binary main_v12 main_v15 main_v16 (mulf : (⟨S2097152x3x5, .f32⟩ : BufTy).Contents (Elt F) → (⟨S2097152x3x5, .f32⟩ : BufTy).Contents (Elt F) → (⟨S2097152x3x5, .f32⟩ : BufTy).Contents (Elt F)),
    unary main_v16 main_v17 (Host.negf : (⟨S2097152x3x5, .f32⟩ : BufTy).Contents (Elt F) → (⟨S2097152x3x5, .f32⟩ : BufTy).Contents (Elt F)),
    binary main_v17 main_v0 main_v18 (mulf : (⟨S2097152x3x5, .f32⟩ : BufTy).Contents (Elt F) → (⟨S2097152x3x5, .f32⟩ : BufTy).Contents (Elt F) → (⟨S2097152x3x5, .f32⟩ : BufTy).Contents (Elt F)) ]

/-- The sums and the quotient by the number of samples. -/
abbrev opsD : List (HloOp τ sig (Elt F)) :=
  [ nullary main_cst_2 (constant S_ .f32 0x00000000#32),
    binary main_v18 main_cst_2 main_v19 ((fun x v => Host.reduceAdd x v reducesTo_S2097152x3x5_S2097152_d1_2 h_S_) : (⟨S2097152x3x5, .f32⟩ : BufTy).Contents (Elt F) → (⟨S_, .f32⟩ : BufTy).Contents (Elt F) → (⟨S2097152, .f32⟩ : BufTy).Contents (Elt F)),
    nullary main_cst_3 (constant S_ .f32 0x00000000#32),
    binary main_v19 main_cst_3 main_v20 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)),
    nullary main_cst_4 (constant S_ .f32 0x4A000000#32),
    binary main_v20 main_cst_4 main_v21 (Host.divf : (⟨S_, .f32⟩ : BufTy).Contents (Elt F) → (⟨S_, .f32⟩ : BufTy).Contents (Elt F) → (⟨S_, .f32⟩ : BufTy).Contents (Elt F)) ]

/-- @main's 50 operations, in order, in the plain form. -/
abbrev ops : List (HloOp τ sig (Elt F)) := opsA ++ (opsB ++ (opsC ++ opsD))

/-- The same 50 operations as @main spells them: a called function's operations stand in its call's place, over typed
    references to the call's buffers. -/
abbrev opsTyped : List (HloOp τ sig (Elt F)) :=
  [ TRef.nullary (TRef.of (T := ⟨S_, .f32⟩) main_call0_cst) (constant S_ .f32 0xFF800000#32),
    TRef.binary (TRef.of (T := ⟨S2097152x3x5, .f32⟩) main_arg0) (TRef.of (T := ⟨S_, .f32⟩) main_call0_cst) (TRef.of (T := ⟨S2097152x5, .f32⟩) main_call0_v0) (fun x v => Host.reduce FloatOps.maximumf x v reducesTo_S2097152x3x5_S2097152x5_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S2097152x5, .f32⟩) main_call0_v1) (broadcastInDim S2097152x5 ![] bcast_S_S2097152x5),
    TRef.binary (TRef.of (T := ⟨S2097152x5, .f32⟩) main_call0_v1) (TRef.of (T := ⟨S2097152x5, .f32⟩) main_call0_v0) (TRef.of (T := ⟨S2097152x5, .f32⟩) main_call0_v2) maximumf,
    TRef.unary (TRef.of (T := ⟨S2097152x5, .f32⟩) main_call0_v2) (TRef.of (T := ⟨S2097152x1x5, .f32⟩) main_call0_v3) (broadcastInDim S2097152x1x5 ![0, 2] bcast_S2097152x5_S2097152x1x5_0_2),
    TRef.unary (TRef.of (T := ⟨S2097152x1x5, .f32⟩) main_call0_v3) (TRef.of (T := ⟨S2097152x3x5, .f32⟩) main_call0_v4) (broadcastInDim S2097152x3x5 ![0, 1, 2] bcast_S2097152x1x5_S2097152x3x5_0_1_2),
    TRef.binary (TRef.of (T := ⟨S2097152x3x5, .f32⟩) main_arg0) (TRef.of (T := ⟨S2097152x3x5, .f32⟩) main_call0_v4) (TRef.of (T := ⟨S2097152x3x5, .f32⟩) main_call0_v5) subf,
    TRef.unary (TRef.of (T := ⟨S2097152x3x5, .f32⟩) main_call0_v5) (TRef.of (T := ⟨S2097152x3x5, .f32⟩) main_call0_v6) Host.exp,
    TRef.nullary (TRef.of (T := ⟨S_, .f32⟩) main_call0_cst_1) (constant S_ .f32 0x00000000#32),
    TRef.binary (TRef.of (T := ⟨S2097152x3x5, .f32⟩) main_call0_v6) (TRef.of (T := ⟨S_, .f32⟩) main_call0_cst_1) (TRef.of (T := ⟨S2097152x5, .f32⟩) main_call0_v7) (fun x v => Host.reduceAdd x v reducesTo_S2097152x3x5_S2097152x5_d1 h_S_),
    TRef.unary (TRef.of (T := ⟨S2097152x5, .f32⟩) main_call0_v7) (TRef.of (T := ⟨S2097152x1x5, .f32⟩) main_call0_v8) (broadcastInDim S2097152x1x5 ![0, 2] bcast_S2097152x5_S2097152x1x5_0_2),
    TRef.unary (TRef.of (T := ⟨S2097152x1x5, .f32⟩) main_call0_v8) (TRef.of (T := ⟨S2097152x1x5, .f32⟩) main_call0_v9) Host.log,
    TRef.unary (TRef.of (T := ⟨S2097152x1x5, .f32⟩) main_call0_v9) (TRef.of (T := ⟨S2097152x3x5, .f32⟩) main_call0_v10) (broadcastInDim S2097152x3x5 ![0, 1, 2] bcast_S2097152x1x5_S2097152x3x5_0_1_2),
    TRef.binary (TRef.of (T := ⟨S2097152x3x5, .f32⟩) main_call0_v5) (TRef.of (T := ⟨S2097152x3x5, .f32⟩) main_call0_v10) (TRef.of (T := ⟨S2097152x3x5, .f32⟩) main_v0) subf,
    nullary main_c (constantI S_ 32 4294967196#32),
    unary main_c main_v1 (broadcastInDim S2097152x5 ![] bcast_S_S2097152x5 : (⟨S_, .i32⟩ : BufTy).Contents (Elt F) → (⟨S2097152x5, .i32⟩ : BufTy).Contents (Elt F)),
    binary main_arg1 main_v1 main_v2 (cmpi .ne : (⟨S2097152x5, .i32⟩ : BufTy).Contents (Elt F) → (⟨S2097152x5, .i32⟩ : BufTy).Contents (Elt F) → (⟨S2097152x5, .i1⟩ : BufTy).Contents (Elt F)),
    nullary main_c_0 (constantI S_ 32 0#32),
    TRef.unary (TRef.of (T := ⟨S_, .i32⟩) main_c_0) (TRef.of (T := ⟨S_, .i32⟩) main_call1_v0) id,
    TRef.unary (TRef.of (T := ⟨S_, .i32⟩) main_call1_v0) (TRef.of (T := ⟨S2097152x5, .i32⟩) main_call1_v1) (broadcastInDim S2097152x5 ![] bcast_S_S2097152x5),
    TRef.ternary (TRef.of (T := ⟨S2097152x5, .i1⟩) main_v2) (TRef.of (T := ⟨S2097152x5, .i32⟩) main_arg1) (TRef.of (T := ⟨S2097152x5, .i32⟩) main_call1_v1) (TRef.of (T := ⟨S2097152x5, .i32⟩) main_v3) select,
    TRef.unary (TRef.of (T := ⟨S2097152x5, .i32⟩) main_v3) (TRef.of (T := ⟨S2097152x1x5, .i32⟩) main_call2_v0) (broadcastInDim S2097152x1x5 ![0, 2] bcast_S2097152x5_S2097152x1x5_0_2),
    TRef.nullary (TRef.of (T := ⟨S1x3x1, .i32⟩) main_call2_v1) (iotaInDim S1x3x1 32 1),
    TRef.unary (TRef.of (T := ⟨S2097152x1x5, .i32⟩) main_call2_v0) (TRef.of (T := ⟨S2097152x3x5, .i32⟩) main_call2_v2) (broadcastInDim S2097152x3x5 ![0, 1, 2] bcast_S2097152x1x5_S2097152x3x5_0_1_2),
    TRef.unary (TRef.of (T := ⟨S1x3x1, .i32⟩) main_call2_v1) (TRef.of (T := ⟨S2097152x3x5, .i32⟩) main_call2_v3) (broadcastInDim S2097152x3x5 ![0, 1, 2] bcast_S1x3x1_S2097152x3x5_0_1_2),
    TRef.binary (TRef.of (T := ⟨S2097152x3x5, .i32⟩) main_call2_v2) (TRef.of (T := ⟨S2097152x3x5, .i32⟩) main_call2_v3) (TRef.of (T := ⟨S2097152x3x5, .i1⟩) main_call2_v4) (cmpi .eq),
    TRef.unary (TRef.of (T := ⟨S2097152x3x5, .i1⟩) main_call2_v4) (TRef.of (T := ⟨S2097152x3x5, .f32⟩) main_v4) (uitofp .f32),
    nullary main_cst (constant S_ .f32 0x3F4CCCCD#32),
    unary main_cst main_v5 (broadcastInDim S2097152x3x5 ![] bcast_S_S2097152x3x5 : (⟨S_, .f32⟩ : BufTy).Contents (Elt F) → (⟨S2097152x3x5, .f32⟩ : BufTy).Contents (Elt F)),
    binary main_v5 main_v4 main_v6 (mulf : (⟨S2097152x3x5, .f32⟩ : BufTy).Contents (Elt F) → (⟨S2097152x3x5, .f32⟩ : BufTy).Contents (Elt F) → (⟨S2097152x3x5, .f32⟩ : BufTy).Contents (Elt F)),
    unary main_v2 main_v7 (broadcastInDim S2097152x1x5 ![0, 2] bcast_S2097152x5_S2097152x1x5_0_2 : (⟨S2097152x5, .i1⟩ : BufTy).Contents (Elt F) → (⟨S2097152x1x5, .i1⟩ : BufTy).Contents (Elt F)),
    unary main_v7 main_v8 (uitofp .f32 : (⟨S2097152x1x5, .i1⟩ : BufTy).Contents (Elt F) → (⟨S2097152x1x5, .f32⟩ : BufTy).Contents (Elt F)),
    unary main_v8 main_v9 (broadcastInDim S2097152x3x5 ![0, 1, 2] bcast_S2097152x1x5_S2097152x3x5_0_1_2 : (⟨S2097152x1x5, .f32⟩ : BufTy).Contents (Elt F) → (⟨S2097152x3x5, .f32⟩ : BufTy).Contents (Elt F)),
    binary main_v6 main_v9 main_v10 (mulf : (⟨S2097152x3x5, .f32⟩ : BufTy).Contents (Elt F) → (⟨S2097152x3x5, .f32⟩ : BufTy).Contents (Elt F) → (⟨S2097152x3x5, .f32⟩ : BufTy).Contents (Elt F)),
    nullary main_cst_1 (constant S_ .f32 0x3D888889#32),
    unary main_cst_1 main_v11 (broadcastInDim S2097152x3x5 ![] bcast_S_S2097152x3x5 : (⟨S_, .f32⟩ : BufTy).Contents (Elt F) → (⟨S2097152x3x5, .f32⟩ : BufTy).Contents (Elt F)),
    binary main_v11 main_v10 main_v12 (addf : (⟨S2097152x3x5, .f32⟩ : BufTy).Contents (Elt F) → (⟨S2097152x3x5, .f32⟩ : BufTy).Contents (Elt F) → (⟨S2097152x3x5, .f32⟩ : BufTy).Contents (Elt F)),
    unary main_v2 main_v13 (broadcastInDim S2097152x1x5 ![0, 2] bcast_S2097152x5_S2097152x1x5_0_2 : (⟨S2097152x5, .i1⟩ : BufTy).Contents (Elt F) → (⟨S2097152x1x5, .i1⟩ : BufTy).Contents (Elt F)),
    unary main_v13 main_v14 (uitofp .f32 : (⟨S2097152x1x5, .i1⟩ : BufTy).Contents (Elt F) → (⟨S2097152x1x5, .f32⟩ : BufTy).Contents (Elt F)),
    unary main_v14 main_v15 (broadcastInDim S2097152x3x5 ![0, 1, 2] bcast_S2097152x1x5_S2097152x3x5_0_1_2 : (⟨S2097152x1x5, .f32⟩ : BufTy).Contents (Elt F) → (⟨S2097152x3x5, .f32⟩ : BufTy).Contents (Elt F)),
    binary main_v12 main_v15 main_v16 (mulf : (⟨S2097152x3x5, .f32⟩ : BufTy).Contents (Elt F) → (⟨S2097152x3x5, .f32⟩ : BufTy).Contents (Elt F) → (⟨S2097152x3x5, .f32⟩ : BufTy).Contents (Elt F)),
    unary main_v16 main_v17 (Host.negf : (⟨S2097152x3x5, .f32⟩ : BufTy).Contents (Elt F) → (⟨S2097152x3x5, .f32⟩ : BufTy).Contents (Elt F)),
    binary main_v17 main_v0 main_v18 (mulf : (⟨S2097152x3x5, .f32⟩ : BufTy).Contents (Elt F) → (⟨S2097152x3x5, .f32⟩ : BufTy).Contents (Elt F) → (⟨S2097152x3x5, .f32⟩ : BufTy).Contents (Elt F)),
    nullary main_cst_2 (constant S_ .f32 0x00000000#32),
    binary main_v18 main_cst_2 main_v19 ((fun x v => Host.reduceAdd x v reducesTo_S2097152x3x5_S2097152_d1_2 h_S_) : (⟨S2097152x3x5, .f32⟩ : BufTy).Contents (Elt F) → (⟨S_, .f32⟩ : BufTy).Contents (Elt F) → (⟨S2097152, .f32⟩ : BufTy).Contents (Elt F)),
    nullary main_cst_3 (constant S_ .f32 0x00000000#32),
    binary main_v19 main_cst_3 main_v20 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)),
    nullary main_cst_4 (constant S_ .f32 0x4A000000#32),
    binary main_v20 main_cst_4 main_v21 (Host.divf : (⟨S_, .f32⟩ : BufTy).Contents (Elt F) → (⟨S_, .f32⟩ : BufTy).Contents (Elt F) → (⟨S_, .f32⟩ : BufTy).Contents (Elt F)) ]

set_option maxRecDepth 8192 in
theorem main_eq_typed (c : Dev nD) : main (F := F) c = seq opsTyped := rfl

attribute [local irreducible] Host.reduce Host.reduceAdd in
set_option maxRecDepth 8192 in
/-- A typed reference to a literal buffer transports along an equation of a type with itself: each operation is its plain form. -/
theorem ops_eq : (opsTyped : List (HloOp τ sig (Elt F))) = ops := rfl

theorem main_eq (c : Dev nD) : main (F := F) c = seq ops := (main_eq_typed c).trans (congrArg seq ops_eq)
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., unary_bufs_sub .., binary_bufs_sub .., unary_bufs_sub .., nullary_bufs_sub .., unary_bufs_sub .., binary_bufs_sub .., unary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., binary_bufs_sub .., nullary_bufs_sub .., binary_bufs_sub .., nullary_bufs_sub .., binary_bufs_sub .., nullary_bufs_sub .., binary_bufs_sub ..⟩

/-- Running one stretch after another is running the second from what the first left. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-! ## Each stretch, from any valuation -/

attribute [local irreducible] Host.reduce Host.reduceAdd in
/-- Stretch A leaves the log-softmax of the scores in `main_v0`. -/
theorem stageA_v0 (W : Valuation τ sig (Elt F)) :
    after opsA W (Proc.devRef .tc main_v0) = val_main_v0 (F := F) (W (Proc.devRef .tc main_arg0)) := by
  after_results <;> rfl
/-- It does not write the labels. -/
theorem stageA_arg1 (W : Valuation τ sig (Elt F)) :
    after opsA W (Proc.devRef .tc main_arg1) = W (Proc.devRef .tc main_arg1) := by
  after_results <;> rfl
theorem stageA_arg0 (W : Valuation τ sig (Elt F)) :
    after opsA W (Proc.devRef .tc main_arg0) = W (Proc.devRef .tc main_arg0) := by
  after_results <;> rfl

/-- Stretch B leaves the validity mask in `main_v2` -/
theorem stageB_v2 (W : Valuation τ sig (Elt F)) :
    after opsB W (Proc.devRef .tc main_v2) = val_main_v2 (F := F) (W (Proc.devRef .tc main_arg1)) := by
  after_results <;> rfl
/-- and the one-hot of the safe label in `main_v4`. -/
theorem stageB_v4 (W : Valuation τ sig (Elt F)) :
    after opsB W (Proc.devRef .tc main_v4) = val_main_v4 (F := F) (W (Proc.devRef .tc main_arg1)) := by
  after_results <;> rfl
theorem stageB_v0 (W : Valuation τ sig (Elt F)) :
    after opsB W (Proc.devRef .tc main_v0) = W (Proc.devRef .tc main_v0) := by
  after_results <;> rfl
theorem stageB_arg0 (W : Valuation τ sig (Elt F)) :
    after opsB W (Proc.devRef .tc main_arg0) = W (Proc.devRef .tc main_arg0) := by
  after_results <;> rfl
theorem stageB_arg1 (W : Valuation τ sig (Elt F)) :
    after opsB W (Proc.devRef .tc main_arg1) = W (Proc.devRef .tc main_arg1) := by
  after_results <;> rfl

/-- Stretch C's function of the one-hot, the mask and the log-probabilities. -/
def lossTerms (oh : (⟨S2097152x3x5, .f32⟩ : BufTy).Contents (Elt F)) (vm : (⟨S2097152x5, .i1⟩ : BufTy).Contents (Elt F))
    (lp : (⟨S2097152x3x5, .f32⟩ : BufTy).Contents (Elt F)) : (⟨S2097152x3x5, .f32⟩ : BufTy).Contents (Elt F) :=
  mulf (Host.negf (mulf (addf (broadcastInDim S2097152x3x5 ![] bcast_S_S2097152x3x5 (constant S_ .f32 0x3D888889#32))
      (mulf (mulf (broadcastInDim S2097152x3x5 ![] bcast_S_S2097152x3x5 (constant S_ .f32 0x3F4CCCCD#32)) oh)
        (broadcastInDim S2097152x3x5 ![0, 1, 2] bcast_S2097152x1x5_S2097152x3x5_0_1_2
          (uitofp .f32 (broadcastInDim S2097152x1x5 ![0, 2] bcast_S2097152x5_S2097152x1x5_0_2 vm)))))
    (broadcastInDim S2097152x3x5 ![0, 1, 2] bcast_S2097152x1x5_S2097152x3x5_0_1_2
      (uitofp .f32 (broadcastInDim S2097152x1x5 ![0, 2] bcast_S2097152x5_S2097152x1x5_0_2 vm))))) lp

theorem stageC_v18 (W : Valuation τ sig (Elt F)) :
    after opsC W (Proc.devRef .tc main_v18)
      = lossTerms (F := F) (W (Proc.devRef .tc main_v4)) (W (Proc.devRef .tc main_v2)) (W (Proc.devRef .tc main_v0)) := by
  after_results <;> rfl
theorem stageC_arg0 (W : Valuation τ sig (Elt F)) :
    after opsC W (Proc.devRef .tc main_arg0) = W (Proc.devRef .tc main_arg0) := by
  after_results <;> rfl
theorem stageC_arg1 (W : Valuation τ sig (Elt F)) :
    after opsC W (Proc.devRef .tc main_arg1) = W (Proc.devRef .tc main_arg1) := by
  after_results <;> rfl

/-- Stretch D's function of the terms: summed per sample, summed over the samples, divided by their number. -/
def meanLoss (x : (⟨S2097152x3x5, .f32⟩ : BufTy).Contents (Elt F)) : (⟨S_, .f32⟩ : BufTy).Contents (Elt F) :=
  Host.divf (Host.reduceAdd (Host.reduceAdd x (constant S_ .f32 0x00000000#32) reducesTo_S2097152x3x5_S2097152_d1_2 h_S_)
    (constant S_ .f32 0x00000000#32) reducesTo_S2097152_S_d0 h_S_) (constant S_ .f32 0x4A000000#32)

attribute [local irreducible] Host.reduce Host.reduceAdd in
theorem stageD_v21 (W : Valuation τ sig (Elt F)) :
    after opsD W (Proc.devRef .tc main_v21) = meanLoss (F := F) (W (Proc.devRef .tc main_v18)) := by
  after_results <;> rfl
theorem stageD_arg0 (W : Valuation τ sig (Elt F)) :
    after opsD W (Proc.devRef .tc main_arg0) = W (Proc.devRef .tc main_arg0) := by
  after_results <;> rfl
theorem stageD_arg1 (W : Valuation τ sig (Elt F)) :
    after opsD W (Proc.devRef .tc main_arg1) = W (Proc.devRef .tc main_arg1) := by
  after_results <;> rfl

/-! ## The whole line -/

attribute [local irreducible] Host.reduce Host.reduceAdd in
/-- The stretches' functions composed are the last stage of the operation-by-operation reading: names unfolded. -/
theorem stages_eq (x0 : (⟨S2097152x3x5, .f32⟩ : BufTy).Contents (Elt F)) (x1 : (⟨S2097152x5, .i32⟩ : BufTy).Contents (Elt F)) :
    meanLoss (F := F) (lossTerms (val_main_v4 (F := F) x1) (val_main_v2 (F := F) x1) (val_main_v0 (F := F) x0))
      = val_main_v21 (F := F) x0 x1 := rfl

/-- What the result buffer holds after the whole line, from any valuation. -/
theorem value_eq (V : Valuation τ sig (Elt F)) :
    after ops V (Proc.devRef .tc main_v21)
      = val_main_v21 (F := F) (V (Proc.devRef .tc main_arg0)) (V (Proc.devRef .tc main_arg1)) := by
  rw [after_app, after_app, after_app, stageD_v21, stageC_v18, stageB_v4, stageB_v2, stageB_v0, stageA_v0, stageA_arg1]
  exact stages_eq _ _

theorem kept_arg0 (V : Valuation τ sig (Elt F)) :
    after ops V (Proc.devRef .tc main_arg0) = V (Proc.devRef .tc main_arg0) := by
  rw [after_app, after_app, after_app, stageD_arg0, stageC_arg0, stageB_arg0, stageA_arg0]
theorem kept_arg1 (V : Valuation τ sig (Elt F)) :
    after ops V (Proc.devRef .tc main_arg1) = V (Proc.devRef .tc main_arg1) := by
  rw [after_app, after_app, after_app, stageD_arg1, stageC_arg1, stageB_arg1, stageA_arg1]

/-- On every device, for any float values, from any memory with zero counters: every weakly fair execution of @main
    terminates with the result at the last stage of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v21)
        = val_main_v21 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v21).trans (value_eq _), (h c main_arg0).trans (kept_arg0 _),
      (h c main_arg1).trans (kept_arg1 _)⟩)
    (run_seq scopedRefs_eq scopedSems_eq defs main (fun _ => ops) main_eq (fun _ => ops_sub) m ρ)

end Cert.ReferenceIdeal.Stages

end
-- ==== Proof.RefValue.lean ====
/-
  The reference's result as the mean loss. The reference's stages (one per host operation, read at an index one
  operation at a time) are put together here, at the ideal instance, over coordinates (sample `b`, class `k`,
  target `t`):
  * the index each layout stage reads its operand at is, at (b, k, t), the index with the broadcast axis dropped or
    set to 0 — (b, 0, t) or (b, t) — and the class iota's is `k`;
  * the label stages are the column's `valid`, `safe` and `hot` (the comparison with the class number written with
    its operands the other way round), the mask a 0/1 bit read unsigned;
  * the weight is masked twice where the kernel masks once: `Lsr.weight_twice`;
  * the maximum over the class axis is the fold of `max` from the start word, taken once more against that word
    (`Lsr.max_start_colMax`); the sum of exponentials is the start word zero plus the sum over the classes;
  * so the product stage at (b, k, t) is `Lsr.term` of the column (b, t) at class `k`;
  * the sum over (class, target) per sample followed by the sum over the samples is, fibre by fibre, the sum over all
    2097152 · 3 · 5 cells (`Finset.sum_fiberwise`), which is the sum over the samples of `Lsr.rowLoss`
    (`Lsr.sum_cells`); the quotient is by the same word.
-/
import proofs.«146227_j51548197487170_2_alg».proof.Proof.RefRead
import proofs.«146227_j51548197487170_2_alg».proof.Proof.Loss
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.ReadP
open Idealize.ShloMosaic Idealize.ShloMosaic.ValueIdx
open Cert.Lsr

/-! ## The layout stages' indices at coordinates -/

theorem e_idx_main_call0_v4 (b : Fin 2097152) (k : Fin 3) (t : Fin 5) : idx_main_call0_v4 (ix3 b k t) = ix3 b (0 : Fin 1) t :=
  funext fun a => Fin.ext (by match a with | ⟨0, _⟩ => rfl | ⟨1, _⟩ => rfl | ⟨2, _⟩ => rfl)
theorem e_idx_main_call0_v10 (b : Fin 2097152) (k : Fin 3) (t : Fin 5) : idx_main_call0_v10 (ix3 b k t) = ix3 b (0 : Fin 1) t :=
  funext fun a => Fin.ext (by match a with | ⟨0, _⟩ => rfl | ⟨1, _⟩ => rfl | ⟨2, _⟩ => rfl)
theorem e_idx_main_call2_v2 (b : Fin 2097152) (k : Fin 3) (t : Fin 5) : idx_main_call2_v2 (ix3 b k t) = ix3 b (0 : Fin 1) t :=
  funext fun a => Fin.ext (by match a with | ⟨0, _⟩ => rfl | ⟨1, _⟩ => rfl | ⟨2, _⟩ => rfl)
theorem e_idx_main_v9 (b : Fin 2097152) (k : Fin 3) (t : Fin 5) : idx_main_v9 (ix3 b k t) = ix3 b (0 : Fin 1) t :=
  funext fun a => Fin.ext (by match a with | ⟨0, _⟩ => rfl | ⟨1, _⟩ => rfl | ⟨2, _⟩ => rfl)
theorem e_idx_main_v15 (b : Fin 2097152) (k : Fin 3) (t : Fin 5) : idx_main_v15 (ix3 b k t) = ix3 b (0 : Fin 1) t :=
  funext fun a => Fin.ext (by match a with | ⟨0, _⟩ => rfl | ⟨1, _⟩ => rfl | ⟨2, _⟩ => rfl)
theorem e_idx_main_call0_v3 (b : Fin 2097152) (u : Fin 1) (t : Fin 5) : idx_main_call0_v3 (ix3 b u t) = ix2 b t :=
  funext fun a => Fin.ext (by match a with | ⟨0, _⟩ => rfl | ⟨1, _⟩ => rfl)
theorem e_idx_main_call0_v8 (b : Fin 2097152) (u : Fin 1) (t : Fin 5) : idx_main_call0_v8 (ix3 b u t) = ix2 b t :=
  funext fun a => Fin.ext (by match a with | ⟨0, _⟩ => rfl | ⟨1, _⟩ => rfl)
theorem e_idx_main_call2_v0 (b : Fin 2097152) (u : Fin 1) (t : Fin 5) : idx_main_call2_v0 (ix3 b u t) = ix2 b t :=
  funext fun a => Fin.ext (by match a with | ⟨0, _⟩ => rfl | ⟨1, _⟩ => rfl)
theorem e_idx_main_v7 (b : Fin 2097152) (u : Fin 1) (t : Fin 5) : idx_main_v7 (ix3 b u t) = ix2 b t :=
  funext fun a => Fin.ext (by match a with | ⟨0, _⟩ => rfl | ⟨1, _⟩ => rfl)
theorem e_idx_main_v13 (b : Fin 2097152) (u : Fin 1) (t : Fin 5) : idx_main_v13 (ix3 b u t) = ix2 b t :=
  funext fun a => Fin.ext (by match a with | ⟨0, _⟩ => rfl | ⟨1, _⟩ => rfl)
theorem e_idx_main_call0_v7 (b : Fin 2097152) (t : Fin 5) (k : Fin 3) : idx_main_call0_v7 (ix2 b t) k = ix3 b k t :=
  funext fun a => Fin.ext (by match a with | ⟨0, _⟩ => rfl | ⟨1, _⟩ => rfl | ⟨2, _⟩ => rfl)
theorem e_class (b : Fin 2097152) (k : Fin 3) (t : Fin 5) : ((idx_main_call2_v3 (ix3 b k t)) 1).val = k.val := rfl

variable (x0 : (⟨S2097152x3x5, .f32⟩ : BufTy).Contents (Elt Ideal)) (x1 : (⟨S2097152x5, .i32⟩ : BufTy).Contents (Elt Ideal))

/-! ## The label stages -/

theorem valid_stage (b : Fin 2097152) (t : Fin 5) : val_main_v2 (F := Ideal) x1 (ix2 b t) = valid (x1 (ix2 b t)) := by
  rw [val_main_v2_apply, val_main_v1_apply, val_main_c_apply]
  rfl

theorem safe_stage (b : Fin 2097152) (t : Fin 5) : val_main_v3 (F := Ideal) x1 (ix2 b t) = safe (x1 (ix2 b t)) := by
  rw [val_main_v3_apply, valid_stage, val_main_call1_v1_apply, val_main_call1_v0_apply, val_main_c_0_apply]
  rfl

theorem hot_stage (b : Fin 2097152) (k : Fin 3) (t : Fin 5) :
    val_main_v4 (F := Ideal) x1 (ix3 b k t) = bit (hot (x1 (ix2 b t)) k) := by
  rw [val_main_v4_apply, val_main_call2_v4_apply, val_main_call2_v2_apply, e_idx_main_call2_v2, val_main_call2_v0_apply,
    e_idx_main_call2_v0, safe_stage, val_main_call2_v3_apply, val_main_call2_v1_apply, e_class, cmpi_eq_comm]
  rfl

theorem mask_stage (b : Fin 2097152) (k : Fin 3) (t : Fin 5) :
    val_main_v9 (F := Ideal) x1 (ix3 b k t) = bit (valid (x1 (ix2 b t))) := by
  rw [val_main_v9_apply, e_idx_main_v9, val_main_v8_apply, val_main_v7_apply, e_idx_main_v7, valid_stage]
  rfl

theorem mask_stage' (b : Fin 2097152) (k : Fin 3) (t : Fin 5) :
    val_main_v15 (F := Ideal) x1 (ix3 b k t) = bit (valid (x1 (ix2 b t))) := by
  rw [val_main_v15_apply, e_idx_main_v15, val_main_v14_apply, val_main_v13_apply, e_idx_main_v13, valid_stage]
  rfl

/-- The reference's weight: masked on the one-hot part, then masked whole. -/
theorem weight_stage (b : Fin 2097152) (k : Fin 3) (t : Fin 5) :
    val_main_v16 (F := Ideal) x1 (ix3 b k t) = weight (x1 (ix2 b t)) k := by
  rw [val_main_v16_apply, val_main_v12_apply, val_main_v11_apply, val_main_cst_1_apply, val_main_v10_apply, val_main_v6_apply,
    val_main_v5_apply, val_main_cst_apply, hot_stage, mask_stage, mask_stage']
  exact weight_twice _ _ _ _

/-! ## The log-softmax stages -/

theorem lift_class (h : S2097152x3x5.Reduces [1] S2097152x5) (b : Fin 2097152) (t : Fin 5) (k : Fin 3) :
    h.lift (ix2 b t) k = ix3 b k t :=
  funext fun a => Fin.ext (by match a with | ⟨0, _⟩ => rfl | ⟨1, _⟩ => rfl | ⟨2, _⟩ => rfl)

attribute [local irreducible] Host.reduce in
/-- The maximum over the class axis at (b, t) is the column's largest score. -/
theorem max_stage (b : Fin 2097152) (t : Fin 5) :
    val_main_call0_v0 (F := Ideal) x0 (ix2 b t) = colMax fun k => x0 (ix3 b k t) := by
  have h : S2097152x3x5.Reduces [1] S2097152x5 := by decide
  have e := Host.reduce_eq_fold_single (α := EReal) (FloatOps.maximumf (F := Ideal) (φ := .f32)) x0
    (val_main_call0_cst (F := Ideal)) reducesTo_S2097152x3x5_S2097152x5_d1 h h_S_ (ix2 b t)
  refine e.trans ?_
  exact congrArg (fun f : Fin 3 → EReal => (Finset.univ : Finset (Fin 3)).fold max (Ideal.ofBits .f32 0xFF800000#32) f)
    (funext fun k => congrArg x0 (lift_class h b t k))

theorem shift_stage (b : Fin 2097152) (k : Fin 3) (t : Fin 5) :
    val_main_call0_v5 (F := Ideal) x0 (ix3 b k t) = x0 (ix3 b k t) - colMax fun k' => x0 (ix3 b k' t) := by
  rw [val_main_call0_v5_apply, val_main_call0_v4_apply, e_idx_main_call0_v4, val_main_call0_v3_apply, e_idx_main_call0_v3,
    val_main_call0_v2_apply, val_main_call0_v1_apply, val_main_call0_cst_0_apply, max_stage]
  show x0 (ix3 b k t) - max (Ideal.ofBits .f32 0xFF800000#32) (colMax fun k' => x0 (ix3 b k' t)) = _
  rw [max_start_colMax]

theorem sumexp_stage (b : Fin 2097152) (t : Fin 5) :
    val_main_call0_v7 (F := Ideal) x0 (ix2 b t) = ∑ k : Fin 3, Ideal.exp (x0 (ix3 b k t) - colMax fun k' => x0 (ix3 b k' t)) := by
  rw [val_main_call0_v7_apply, val_main_call0_cst_1_apply]
  show Ideal.ofBits .f32 0x00000000#32 + _ = _
  rw [Ideal.ofBits_zero_f32, zero_add]
  refine Finset.sum_congr rfl fun k _ => ?_
  rw [val_main_call0_v6_apply, e_idx_main_call0_v7, shift_stage]
  rfl

theorem logprob_stage (b : Fin 2097152) (k : Fin 3) (t : Fin 5) :
    val_main_v0 (F := Ideal) x0 (ix3 b k t) = logProb (fun k' => x0 (ix3 b k' t)) k := by
  rw [val_main_v0_apply, shift_stage, val_main_call0_v10_apply, e_idx_main_call0_v10, val_main_call0_v9_apply,
    val_main_call0_v8_apply, e_idx_main_call0_v8, sumexp_stage]
  rfl

/-! ## The product stage and the sums -/

/-- The product stage at (b, k, t) is the column's loss term at class `k`. -/
theorem term_stage (b : Fin 2097152) (k : Fin 3) (t : Fin 5) :
    val_main_v18 (F := Ideal) x0 x1 (ix3 b k t) = term (fun k' => x0 (ix3 b k' t)) (x1 (ix2 b t)) k := by
  rw [val_main_v18_apply, val_main_v17_apply, weight_stage, logprob_stage]
  rfl

/-- The reference's result: the mean loss of its arguments. -/
theorem ref_value : val_main_v21 (F := Ideal) x0 x1 = fun _ => meanLoss x0 x1 := by
  funext i
  rw [val_main_v21_apply, val_main_v20_apply, val_main_cst_3_apply, val_main_cst_4_apply]
  show Ideal.div (Ideal.ofBits .f32 0x00000000#32 + ∑ j : S2097152.Idx, val_main_v19 (F := Ideal) x0 x1 j)
    (Ideal.ofBits .f32 0x4A000000#32) = _
  have hsum : ∑ j : S2097152.Idx, val_main_v19 (F := Ideal) x0 x1 j = ∑ b : Fin 2097152, rowLoss x0 x1 b := by
    have h19 : ∀ j : S2097152.Idx, val_main_v19 (F := Ideal) x0 x1 j
        = ∑ i ∈ Finset.univ.filter (fun i : S2097152x3x5.Idx => reducesTo_S2097152x3x5_S2097152_d1_2.drop i = j),
            val_main_v18 (F := Ideal) x0 x1 i := by
      intro j
      show Ideal.ofBits .f32 0x00000000#32 + _ = _
      rw [Ideal.ofBits_zero_f32, zero_add]
    rw [Finset.sum_congr rfl fun j _ => h19 j, Finset.sum_fiberwise]
    refine Eq.trans (Finset.sum_congr rfl fun i _ => ?_)
      (sum_cells fun b k t => term (fun k' => x0 (ix3 b k' t)) (x1 (ix2 b t)) k)
    obtain ⟨b, k, t, rfl⟩ : ∃ (b : Fin 2097152) (k : Fin 3) (t : Fin 5), i = ix3 b k t := ⟨i 0, i 1, i 2, eq_ix3 i⟩
    exact term_stage x0 x1 b k t
  rw [hsum, Ideal.ofBits_zero_f32, zero_add]
  rfl

end Cert.ReferenceIdeal.RefValue

end
-- ==== Proof.lean ====
/-
  The label-smoothed cross entropy, kernel against reference, on the extended reals.

  Both programs compute, from scores `pred : [2097152, 3, 5]` and integer labels `lab : [2097152, 5]`,

      meanLoss pred lab = ( ∑ b, ∑ t, ∑ c, -(w (lab b t) c) · logsoftmax (pred b · t) c ) / n

  where the log-softmax is over the class axis, shifted by the column's largest score; the weight is
  `(w₁ + w₂ · [c = label]) · [label ≠ -100]` with `w₁`, `w₂`, `n` the float words for 1/15, 4/5 and 2097152 that BOTH
  programs print (never evaluated: the same word on both sides); an ignored label zeroes its whole column.
  * The kernel transposes the arguments so that samples run along the last axis, computes per block of 16384 samples
    the per-sample sums (classes, then targets), writes them as a [1, 2097152] array, and the host sums that array and
    divides (Payload, KernelValue, KernelRun: the generated frame run with its post read at the result).
  * The reference computes the [2097152, 3, 5] array of terms, sums it per sample over (class, target), sums the
    samples and divides (RefStages: its run; RefValue: the stages read at coordinates).
  The two differ only by things that hold on every extended real: the mask applied once or twice (0 annihilates,
  1 is neutral), `0 - w` for `-w`, a one-bit word read signed after widening or unsigned, the operands of an equality
  test swapped, one more `max` with the fold's own start, and the grouping of a finite sum in a commutative monoid.
  So the precondition (finite scores) is never opened. The frames of the two kernel programs are the generated ones;
  the reference's frame is its run with the result dropped; the idealization rewrote nothing, so `preserves` is `True`.
-/
import proofs.«146227_j51548197487170_2_alg».proof.Defs
import proofs.«146227_j51548197487170_2_alg».proof.Proof.Gen.Kernel
import proofs.«146227_j51548197487170_2_alg».proof.Proof.Gen.Kernel.Frame
import proofs.«146227_j51548197487170_2_alg».proof.Proof.Gen.KernelIdeal
import proofs.«146227_j51548197487170_2_alg».proof.Proof.Gen.KernelIdeal.Frame
import proofs.«146227_j51548197487170_2_alg».proof.Proof.Gen.ReferenceIdeal
import proofs.«146227_j51548197487170_2_alg».proof.Proof.Gen.Pre_finite_inputs
import proofs.«146227_j51548197487170_2_alg».proof.Proof.KernelRun
import proofs.«146227_j51548197487170_2_alg».proof.Proof.RefStages
import proofs.«146227_j51548197487170_2_alg».proof.Proof.RefValue
import Idealize.ShloMosaic.Adequacy
import Idealize.ShloMosaic.Init

noncomputable section

namespace Cert.Proof

open Idealize.ShloMosaic Idealize.SL.Sem

/-- The word-level kernel runs and leaves its arguments: the generated frame. -/
theorem frame_kernel : @Cert.frame_Kernel Cert.Kernel.Gen.facts Cert.Pre_finite_inputs.Gen.facts :=
  fun m ρ _ => Cert.Kernel.Gen.frame m ρ

/-- The idealized kernel likewise. -/
theorem frame_kernelIdeal : @Cert.frame_KernelIdeal Cert.KernelIdeal.Gen.facts Cert.Pre_finite_inputs.Gen.facts :=
  fun m ρ _ => Cert.KernelIdeal.Gen.frame m ρ

/-- The reference runs and leaves its arguments: its run with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Stages.run (F := Ideal) m ρ)

/-- From memories agreeing on the arguments both programs end with the mean loss of those arguments in their result. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c _ => Cert.Lsr.meanLoss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Stages.run (F := Ideal) m' ρ')
  rw [(hagree c).1, (hagree c).2]
  exact Cert.ReferenceIdeal.RefValue.ref_value _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
